-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x512 : Shape := ⟨2, ![10000, 512]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩
abbrev S10000 : Shape := ⟨1, ![10000]⟩

abbrev nBuf : Space → Nat
  | .hbm => 82
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x1, .f32⟩
  | .hbm, ⟨40, _⟩ => ⟨S100000x512, .bf16⟩
  | .hbm, ⟨41, _⟩ => ⟨S512x64, .bf16⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .bf16⟩
  | .hbm, ⟨62, _⟩ => ⟨S64x40, .bf16⟩
  | .hbm, ⟨63, _⟩ => ⟨S100000x40, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x40, .f32⟩
  | .hbm, ⟨73, _⟩ => ⟨S1600000x1, .f32⟩
  | .hbm, ⟨74, _⟩ => ⟨S1600000x40, .f32⟩
  | .hbm, ⟨75, _⟩ => ⟨S1600000x40, .f32⟩
  | .hbm, ⟨76, _⟩ => ⟨S_, .f32⟩
  | .hbm, ⟨77, _⟩ => ⟨S100000x40, .f32⟩
  | .hbm, ⟨78, _⟩ => ⟨S1600000x1, .i32⟩
  | .hbm, ⟨79, _⟩ => ⟨S100000x40, .f32⟩
  | .hbm, ⟨80, _⟩ => ⟨S1x40, .f32⟩
  | .hbm, ⟨81, _⟩ => ⟨S100000x40, .f32⟩
  | .local _ .vmem, ⟨0, _⟩ => ⟨S10000x512, .bf16⟩
  | .local _ .vmem, ⟨1, _⟩ => ⟨S10000x512, .bf16⟩
  | .local _ .vmem, ⟨2, _⟩ => ⟨S512x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .bf16⟩
  | .local _ .vmem, ⟨15, _⟩ => ⟨S10000x64, .bf16⟩
  | .local _ .vmem, ⟨16, _⟩ => ⟨S64x40, .bf16⟩
  | .local _ .vmem, ⟨17, _⟩ => ⟨S10000x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x512_S512x64_S10000x64_1_0_0_1_n_n_wf : DotDims.WF S10000x512 S512x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .bf16 = 32 ∨ (Rect.block (s := S100000x512) S10000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .bf16 = 32 ∨ (Rect.block (s := S64x40) S64x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S100000x40.size a
  hwx3_1 : ∀ i : grid3.Coords, EltTy.bits .f32 = 32 ∨ (Rect.block (s := S100000x40) S10000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x40.size a ≤ S100000x40.size a
  hwx3_4 : ∀ i : grid3.Coords, EltTy.bits .f32 = 32 ∨ (Rect.block (s := S100000x40) S10000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v27) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S10000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S10000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 138
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .i1⟩
  | 67 => ⟨S_, .f32⟩
  | 68 => ⟨S100000x64, .f32⟩
  | 69 => ⟨S100000x64, .i1⟩
  | 70 => ⟨S_, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000x40, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x40, .f32⟩
  | 108 => ⟨S1600000x1, .f32⟩
  | 109 => ⟨S1600000x40, .f32⟩
  | 110 => ⟨S1600000x40, .f32⟩
  | 111 => ⟨S_, .f32⟩
  | 112 => ⟨S100000x40, .f32⟩
  | 113 => ⟨S1600000x1, .i32⟩
  | 114 => ⟨S100000x40, .f32⟩
  | 115 => ⟨S100000, .f32⟩
  | 116 => ⟨S100000x1, .f32⟩
  | 117 => ⟨S100000x40, .f32⟩
  | 118 => ⟨S100000x40, .f32⟩
  | 119 => ⟨S100000x40, .f32⟩
  | 120 => ⟨S1x40, .f32⟩
  | 121 => ⟨S100000x40, .f32⟩
  | 122 => ⟨S100000x40, .f32⟩
  | 123 => ⟨S_, .f32⟩
  | 124 => ⟨S100000, .f32⟩
  | 125 => ⟨S_, .f32⟩
  | 126 => ⟨S100000, .f32⟩
  | 127 => ⟨S100000, .f32⟩
  | _ => ⟨S100000x512, .f32⟩

abbrev hbmTy0_1 (i : Nat) : BufTy := match i % 128 with
  | 0 => ⟨S100000x1, .f32⟩
  | 1 => ⟨S100000x40, .f32⟩
  | 2 => ⟨S100000x40, .f32⟩
  | 3 => ⟨S100000x40, .f32⟩
  | 4 => ⟨S_, .f32⟩
  | 5 => ⟨S100000, .f32⟩
  | 6 => ⟨S100000x1, .f32⟩
  | 7 => ⟨S100000x1, .f32⟩
  | 8 => ⟨S100000x40, .f32⟩
  | 9 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_cst_1 : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_v4 : Ref sig .tc := ⟨.hbm, 73, rfl⟩
abbrev main_call0_v5 : Ref sig .tc := ⟨.hbm, 74, rfl⟩
abbrev main_call0_cst_2 : Ref sig .tc := ⟨.hbm, 75, rfl⟩
abbrev main_call0_v6 : Ref sig .tc := ⟨.hbm, 76, rfl⟩
abbrev main_call0_v7 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call1_cst : Ref sig .tc := ⟨.hbm, 123, rfl⟩
abbrev main_call1_v0 : Ref sig .tc := ⟨.hbm, 124, rfl⟩
abbrev main_call1_cst_0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_cst_1 : Ref sig .tc := ⟨.hbm, 132, rfl⟩
abbrev main_call1_v7 : Ref sig .tc := ⟨.hbm, 133, rfl⟩
abbrev main_call1_v8 : Ref sig .tc := ⟨.hbm, 134, rfl⟩
abbrev main_call1_v9 : Ref sig .tc := ⟨.hbm, 135, rfl⟩
abbrev main_call1_v10 : Ref sig .tc := ⟨.hbm, 136, rfl⟩
abbrev main_v86 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S1600000x1_S1600000_n_0_0_1_wf : ScatterDims.WF S100000 S1600000x1 S1600000 [] [0] [0] 1
  dot_S100000x512_S512x64_S100000x64_1_0_0_1_n_n_wf : DotDims.WF S100000x512 S512x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KerRun.lean ====
/-
  The idealized kernel's run with its result named.

  The program is four gridded regions among stretches of host operations. The buffer contents at the boundaries are a
  fold from the launch memory: a stretch applies its operations, a region replaces its output array by what its
  write-backs leave and keeps every other buffer. Every weakly fair execution terminates, nothing faulting; the final
  state holds every unscoped buffer at the last boundary's contents, so the result buffer holds that fold's value at the
  result, and the six argument arrays are as launched.
-/
import proofs.«115716_j48524540510801_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents
    and the argument arrays as launched. -/
theorem run_out : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.HostChain.lean ====
/-
  The graph convolution's host side, as whole-array functions.

  From the edge list (two rows: sources, destinations) the reference computes the inverse square root of each node's
  degree d = rsqrt(1 + #incoming edges), the edge weights norm = d[src] · d[dst], and per layer, from the dense product
  h = X · W, the neighbours' weighted sum agg = Σ_{edges into r} h[src] · norm scattered to the destinations, the
  layer's value agg + h · (d · d) + b, and the activation: the exponential linear unit after the first layer, the
  logarithm of the softmax along the channels after the second. Each definition is the composition of the printed
  operations, in the printed order; the gathers and scatters are never opened.
-/
import proofs.«115716_j48524540510801_2_alg».proof.Proof.Gen.ReferenceIdeal

noncomputable section

namespace Cert.ReferenceIdeal.Chain

open Cert.ReferenceIdeal Idealize.ShloMosaic
open Cert.ReferenceIdeal.Facts₀

variable {F : FTy → Type} [FloatOps F]

/-- The edges' source nodes: row 0 of the edge list. -/
def src (adj : IVec S2x1600000 32) : IVec S1600000 32 :=
  shapeCast S1600000 (extractStridedSlice S1x1600000 ![0, 0] adj slices_S2x1600000_S1x1600000_0_0) shapeCasts_S1x1600000_S1600000

/-- The edges' destination nodes: row 1 of the edge list. -/
def dst (adj : IVec S2x1600000 32) : IVec S1600000 32 :=
  shapeCast S1600000 (extractStridedSlice S1x1600000 ![1, 0] adj slices_S2x1600000_S1x1600000_1_0) shapeCasts_S1x1600000_S1600000

/-- A node index as a gather's start index: a negative index counts from the end (n is added), kept as a column. -/
def wrap (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The inverse square root of each node's degree, the degree counting the node itself: rsqrt(Σ_{edges into r} 1 + 1). -/
def dis (adj : IVec S2x1600000 32) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dst adj))
      (broadcastInDim S1600000 ![] bcast_S_S1600000 (constant S_ .f32 0x3F800000#32)))
    (broadcastInDim S100000 ![] bcast_S_S100000 (constant S_ .f32 0x3F800000#32)))

/-- The edge weights: d[src] · d[dst]. -/
def norm (adj : IVec S2x1600000 32) : FVec F S1600000 .f32 :=
  mulf (Host.gather gather_S100000_S1600000x1_S1600000_n_0_n_n_0_1_1 (dis (F := F) adj) (wrap (src adj)))
    (Host.gather gather_S100000_S1600000x1_S1600000_n_0_n_n_0_1_1 (dis (F := F) adj) (wrap (dst adj)))

/-- The neighbours' weighted sum over 64 channels: h[src] · norm, summed into the destinations. -/
def agg64 (h : FVec F S100000x64 .f32) (adj : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst adj))
    (mulf (Host.gather gather_S100000x64_S1600000x1_S1600000x64_1_0_n_n_0_1_164 h (wrap (src adj)))
      (broadcastInDim S1600000x64 ![0, 1] bcast_S1600000x1_S1600000x64_0_1
        (broadcastInDim S1600000x1 ![0] bcast_S1600000_S1600000x1_0 (norm (F := F) adj))))

/-- The neighbours' weighted sum over 40 channels. -/
def agg40 (h : FVec F S100000x40 .f32) (adj : IVec S2x1600000 32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 (dst adj))
    (mulf (Host.gather gather_S100000x40_S1600000x1_S1600000x40_1_0_n_n_0_1_140 h (wrap (src adj)))
      (broadcastInDim S1600000x40 ![0, 1] bcast_S1600000x1_S1600000x40_0_1
        (broadcastInDim S1600000x1 ![0] bcast_S1600000_S1600000x1_0 (norm (F := F) adj))))

/-- A 64-channel layer's value from its aggregate: agg + h · (d · d) + b, the factor and the bias broadcast. -/
def val64 (agg h : FVec F S100000x64 .f32) (d : FVec F S100000 .f32) (b : FVec F S64 .f32) : FVec F S100000x64 .f32 :=
  addf (addf agg (mulf h (broadcastInDim S100000x64 ![0, 1] bcast_S100000x1_S100000x64_0_1
      (broadcastInDim S100000x1 ![0] bcast_S100000_S100000x1_0 (mulf d d)))))
    (broadcastInDim S100000x64 ![0, 1] bcast_S1x64_S100000x64_0_1 (broadcastInDim S1x64 ![1] bcast_S64_S1x64_1 b))

/-- A 40-channel layer's value from its aggregate. -/
def val40 (agg h : FVec F S100000x40 .f32) (d : FVec F S100000 .f32) (b : FVec F S40 .f32) : FVec F S100000x40 .f32 :=
  addf (addf agg (mulf h (broadcastInDim S100000x40 ![0, 1] bcast_S100000x1_S100000x40_0_1
      (broadcastInDim S100000x1 ![0] bcast_S100000_S100000x1_0 (mulf d d)))))
    (broadcastInDim S100000x40 ![0, 1] bcast_S1x40_S100000x40_0_1 (broadcastInDim S1x40 ![1] bcast_S40_S1x40_1 b))

/-- The exponential linear unit as the reference writes it: v where v > 0, elsewhere 1 · expm1 of (0 where v > 0, v
    elsewhere). -/
def eluH (v : FVec F S100000x64 .f32) : FVec F S100000x64 .f32 :=
  select (cmpf .ogt v (broadcastInDim S100000x64 ![] bcast_S_S100000x64 (constant S_ .f32 0x00000000#32))) v
    (mulf (broadcastInDim S100000x64 ![] bcast_S_S100000x64 (constant S_ .f32 0x3F800000#32))
      (Host.expm1 (select (cmpf .ogt v (broadcastInDim S100000x64 ![] bcast_S_S100000x64 (constant S_ .f32 0x00000000#32)))
        (broadcastInDim S100000x64 ![] bcast_S_S100000x64 (id (constant S_ .f32 0x00000000#32))) v)))

/-- A row's maximum from −∞, taken once more against −∞. -/
def maxH (v : FVec F S100000x40 .f32) : FVec F S100000 .f32 :=
  maximumf (broadcastInDim S100000 ![] bcast_S_S100000 (constant S_ .f32 0xFF800000#32))
    (Host.reduce FloatOps.maximumf v (constant S_ .f32 0xFF800000#32) reducesTo_S100000x40_S100000_d1 h_S_)

/-- The entries less their row's maximum. -/
def shiftH (v : FVec F S100000x40 .f32) : FVec F S100000x40 .f32 :=
  subf v (broadcastInDim S100000x40 ![0, 1] bcast_S100000x1_S100000x40_0_1
    (broadcastInDim S100000x1 ![0] bcast_S100000_S100000x1_0 (maxH v)))

/-- The logarithm of the softmax along the channels as the reference writes it. -/
def lsmH (v : FVec F S100000x40 .f32) : FVec F S100000x40 .f32 :=
  subf (shiftH v) (broadcastInDim S100000x40 ![0, 1] bcast_S100000x1_S100000x40_0_1
    (Host.log (broadcastInDim S100000x1 ![0] bcast_S100000_S100000x1_0
      (Host.reduceAdd (Host.exp (shiftH v)) (constant S_ .f32 0x00000000#32) reducesTo_S100000x40_S100000_d1 h_S_))))

/-- The first layer's dense product X · W1. -/
def h1pre (x : FVec F S100000x512 .f32) (w1 : FVec F S512x64 .f32) : FVec F S100000x64 .f32 :=
  Host.dotGeneral dot_S100000x512_S512x64_S100000x64_1_0_0_1_n_n none x w1

/-- The first layer's output. -/
def h1 (x : FVec F S100000x512 .f32) (adj : IVec S2x1600000 32) (w1 : FVec F S512x64 .f32) (b1 : FVec F S64 .f32) :
    FVec F S100000x64 .f32 :=
  eluH (val64 (agg64 (h1pre x w1) adj) (h1pre x w1) (dis adj) b1)

/-- The second layer's dense product H1 · W2. -/
def h2pre (hh : FVec F S100000x64 .f32) (w2 : FVec F S64x40 .f32) : FVec F S100000x40 .f32 :=
  Host.dotGeneral dot_S100000x64_S64x40_S100000x40_1_0_0_1_n_n none hh w2

/-- The reference's result: the log-softmax of the second layer's value. -/
def out (x : FVec F S100000x512 .f32) (adj : IVec S2x1600000 32) (w1 : FVec F S512x64 .f32) (b1 : FVec F S64 .f32)
    (w2 : FVec F S64x40 .f32) (b2 : FVec F S40 .f32) : FVec F S100000x40 .f32 :=
  lsmH (val40 (agg40 (h2pre (h1 x adj w1 b1) w2) adj) (h2pre (h1 x adj w1 b1) w2) (dis adj) b2)

end Cert.ReferenceIdeal.Chain

end
-- ==== Proof.Stretch.lean ====
/-
  The idealized kernel's host stretches, read back.

  Between its four regions the program runs the same host operations as the reference: the stretch before the first
  region computes the edge sources and destinations, the inverse square roots of the degrees, the edge weights, the
  degree factors as a column, and hands the first product its operands; the stretch before each finalize region
  gathers the product's rows at the sources, weights them, and sums them into the destinations, and lays the bias out
  as a row; the stretch before the second product only changes its operands' float format. Each lemma says what one
  stretch leaves in one buffer as a function of what the stretch found; a buffer the stretch does not write keeps
  its contents.
-/
import proofs.«115716_j48524540510801_2_alg».proof.Proof.Gen.KernelIdeal.Frame
import proofs.«115716_j48524540510801_2_alg».proof.Proof.HostChain
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]
variable (W : Valuation τ sig (Elt F))

/-- The neighbours' weighted sum over 64 channels from the sources, destinations and weights as arrays. -/
def aggOf64 (h : FVec F Cert.ReferenceIdeal.S100000x64 .f32) (s d : IVec Cert.ReferenceIdeal.S1600000 32)
    (nrm : FVec F Cert.ReferenceIdeal.S1600000 .f32) : FVec F Cert.ReferenceIdeal.S100000x64 .f32 :=
  Host.scatterAdd Cert.ReferenceIdeal.scatter_S100000x64_S1600000x1_S1600000x64_1_0_0_1
    (broadcastInDim Cert.ReferenceIdeal.S100000x64 ![] Cert.ReferenceIdeal.Facts₀.bcast_S_S100000x64 (constant Cert.ReferenceIdeal.S_ .f32 0x00000000#32))
    (broadcastInDim Cert.ReferenceIdeal.S1600000x1 ![0] Cert.ReferenceIdeal.Facts₀.bcast_S1600000_S1600000x1_0 d)
    (mulf (Host.gather Cert.ReferenceIdeal.gather_S100000x64_S1600000x1_S1600000x64_1_0_n_n_0_1_164 h (Cert.ReferenceIdeal.Chain.wrap s))
      (broadcastInDim Cert.ReferenceIdeal.S1600000x64 ![0, 1] Cert.ReferenceIdeal.Facts₀.bcast_S1600000x1_S1600000x64_0_1
        (broadcastInDim Cert.ReferenceIdeal.S1600000x1 ![0] Cert.ReferenceIdeal.Facts₀.bcast_S1600000_S1600000x1_0 nrm)))

/-- The same over 40 channels. -/
def aggOf40 (h : FVec F Cert.ReferenceIdeal.S100000x40 .f32) (s d : IVec Cert.ReferenceIdeal.S1600000 32)
    (nrm : FVec F Cert.ReferenceIdeal.S1600000 .f32) : FVec F Cert.ReferenceIdeal.S100000x40 .f32 :=
  Host.scatterAdd Cert.ReferenceIdeal.scatter_S100000x40_S1600000x1_S1600000x40_1_0_0_1
    (broadcastInDim Cert.ReferenceIdeal.S100000x40 ![] Cert.ReferenceIdeal.Facts₀.bcast_S_S100000x40 (constant Cert.ReferenceIdeal.S_ .f32 0x00000000#32))
    (broadcastInDim Cert.ReferenceIdeal.S1600000x1 ![0] Cert.ReferenceIdeal.Facts₀.bcast_S1600000_S1600000x1_0 d)
    (mulf (Host.gather Cert.ReferenceIdeal.gather_S100000x40_S1600000x1_S1600000x40_1_0_n_n_0_1_140 h (Cert.ReferenceIdeal.Chain.wrap s))
      (broadcastInDim Cert.ReferenceIdeal.S1600000x40 ![0, 1] Cert.ReferenceIdeal.Facts₀.bcast_S1600000x1_S1600000x40_0_1
        (broadcastInDim Cert.ReferenceIdeal.S1600000x1 ![0] Cert.ReferenceIdeal.Facts₀.bcast_S1600000_S1600000x1_0 nrm)))

/-- With the reference's sources, destinations and weights these are the reference's aggregates. -/
theorem aggOf64_chain (h : FVec F Cert.ReferenceIdeal.S100000x64 .f32) (adj : IVec Cert.ReferenceIdeal.S2x1600000 32) :
    aggOf64 h (Cert.ReferenceIdeal.Chain.src adj) (Cert.ReferenceIdeal.Chain.dst adj) (Cert.ReferenceIdeal.Chain.norm adj) = Cert.ReferenceIdeal.Chain.agg64 h adj := rfl
theorem aggOf40_chain (h : FVec F Cert.ReferenceIdeal.S100000x40 .f32) (adj : IVec Cert.ReferenceIdeal.S2x1600000 32) :
    aggOf40 h (Cert.ReferenceIdeal.Chain.src adj) (Cert.ReferenceIdeal.Chain.dst adj) (Cert.ReferenceIdeal.Chain.norm adj) = Cert.ReferenceIdeal.Chain.agg40 h adj := rfl

/-- The degree factors as a column, the biases as rows. -/
def col (d : FVec F S100000 .f32) : FVec F S100000x1 .f32 := shapeCast S100000x1 d Facts₀.shapeCasts_S100000_S100000x1
def row64 (b : FVec F S64 .f32) : FVec F S1x64 .f32 := shapeCast S1x64 b Facts₀.shapeCasts_S64_S1x64
def row40 (b : FVec F S40 .f32) : FVec F S1x40 .f32 := shapeCast S1x40 b Facts₀.shapeCasts_S40_S1x40

/-! ## The opening stretch -/

theorem ops0_v1 : after hostOps0 W (Proc.devRef .tc main_v1) = Cert.ReferenceIdeal.Chain.src (W (Proc.devRef .tc main_arg1)) := by
  after_results
  rfl
theorem ops0_v3 : after hostOps0 W (Proc.devRef .tc main_v3) = Cert.ReferenceIdeal.Chain.dst (W (Proc.devRef .tc main_arg1)) := by
  after_results
  rfl
theorem ops0_v25 : after hostOps0 W (Proc.devRef .tc main_v25) = Cert.ReferenceIdeal.Chain.norm (F := F) (W (Proc.devRef .tc main_arg1)) := by
  after_results_simp
  rfl
theorem ops0_v26 : after hostOps0 W (Proc.devRef .tc main_v26) = col (Cert.ReferenceIdeal.Chain.dis (F := F) (W (Proc.devRef .tc main_arg1))) := by
  after_results
  rfl
theorem ops0_v27 : after hostOps0 W (Proc.devRef .tc main_v27) = truncf .bf16 (W (Proc.devRef .tc main_arg0)) bitsLt_bf16_f32 := by
  after_results
theorem ops0_v28 : after hostOps0 W (Proc.devRef .tc main_v28) = truncf .bf16 (W (Proc.devRef .tc main_arg2)) bitsLt_bf16_f32 := by
  after_results
theorem ops0_keep_arg3 : after hostOps0 W (Proc.devRef .tc main_arg3) = W (Proc.devRef .tc main_arg3) := by
  after_results
theorem ops0_keep_arg4 : after hostOps0 W (Proc.devRef .tc main_arg4) = W (Proc.devRef .tc main_arg4) := by
  after_results
theorem ops0_keep_arg5 : after hostOps0 W (Proc.devRef .tc main_arg5) = W (Proc.devRef .tc main_arg5) := by
  after_results

/-! ## The stretch before the first finalize region -/

theorem ops1_v42 : after hostOps1 W (Proc.devRef .tc main_v42)
    = aggOf64 (W (Proc.devRef .tc main_v29)) (W (Proc.devRef .tc main_v1)) (W (Proc.devRef .tc main_v3)) (W (Proc.devRef .tc main_v25)) := by
  after_results_simp
  rfl
theorem ops1_v43 : after hostOps1 W (Proc.devRef .tc main_v43) = row64 (W (Proc.devRef .tc main_arg3)) := by
  after_results
  rfl
theorem ops1_keep_v29 : after hostOps1 W (Proc.devRef .tc main_v29) = W (Proc.devRef .tc main_v29) := by
  after_results
theorem ops1_keep_v26 : after hostOps1 W (Proc.devRef .tc main_v26) = W (Proc.devRef .tc main_v26) := by
  after_results
theorem ops1_keep_v1 : after hostOps1 W (Proc.devRef .tc main_v1) = W (Proc.devRef .tc main_v1) := by
  after_results
theorem ops1_keep_v3 : after hostOps1 W (Proc.devRef .tc main_v3) = W (Proc.devRef .tc main_v3) := by
  after_results
theorem ops1_keep_v25 : after hostOps1 W (Proc.devRef .tc main_v25) = W (Proc.devRef .tc main_v25) := by
  after_results
theorem ops1_keep_arg4 : after hostOps1 W (Proc.devRef .tc main_arg4) = W (Proc.devRef .tc main_arg4) := by
  after_results
theorem ops1_keep_arg5 : after hostOps1 W (Proc.devRef .tc main_arg5) = W (Proc.devRef .tc main_arg5) := by
  after_results

/-! ## The stretch before the second product -/

theorem ops2_v45 : after hostOps2 W (Proc.devRef .tc main_v45) = truncf .bf16 (W (Proc.devRef .tc main_v44)) bitsLt_bf16_f32 := by
  after_results
theorem ops2_v46 : after hostOps2 W (Proc.devRef .tc main_v46) = truncf .bf16 (W (Proc.devRef .tc main_arg4)) bitsLt_bf16_f32 := by
  after_results
theorem ops2_keep_v26 : after hostOps2 W (Proc.devRef .tc main_v26) = W (Proc.devRef .tc main_v26) := by
  after_results
theorem ops2_keep_v1 : after hostOps2 W (Proc.devRef .tc main_v1) = W (Proc.devRef .tc main_v1) := by
  after_results
theorem ops2_keep_v3 : after hostOps2 W (Proc.devRef .tc main_v3) = W (Proc.devRef .tc main_v3) := by
  after_results
theorem ops2_keep_v25 : after hostOps2 W (Proc.devRef .tc main_v25) = W (Proc.devRef .tc main_v25) := by
  after_results
theorem ops2_keep_arg5 : after hostOps2 W (Proc.devRef .tc main_arg5) = W (Proc.devRef .tc main_arg5) := by
  after_results

/-! ## The stretch before the second finalize region -/

theorem ops3_v60 : after hostOps3 W (Proc.devRef .tc main_v60)
    = aggOf40 (W (Proc.devRef .tc main_v47)) (W (Proc.devRef .tc main_v1)) (W (Proc.devRef .tc main_v3)) (W (Proc.devRef .tc main_v25)) := by
  after_results_simp
  rfl
theorem ops3_v61 : after hostOps3 W (Proc.devRef .tc main_v61) = row40 (W (Proc.devRef .tc main_arg5)) := by
  after_results
  rfl
theorem ops3_keep_v47 : after hostOps3 W (Proc.devRef .tc main_v47) = W (Proc.devRef .tc main_v47) := by
  after_results
theorem ops3_keep_v26 : after hostOps3 W (Proc.devRef .tc main_v26) = W (Proc.devRef .tc main_v26) := by
  after_results

end Cert.KernelIdeal.Stretch

end
-- ==== Proof.Spec.lean ====
/-
  What the four kernel regions compute, as whole-array functions on the extended reals, index by index.

  A graph convolution layer with C output channels ends, at node r and channel j, at
      val[r, j] = agg[r, j] + h[r, j] · (d[r] · d[r]) + b[j],
  where h = X · W is the dense product, agg the neighbours' normalised sum, d the inverse square root of the degree
  (kept as a column) and b the bias (kept as a row). The first layer applies the exponential linear unit
      elu v = v if v > 0, else e^v − 1,
  the second the logarithm of the softmax along the channels,
      lsm[r, j] = (val[r, j] − M_r) − log Σ_k e^(val[r, k] − M_r),   M_r = max(−∞, max_k val[r, k]).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The dense product of an [n, k] matrix with a [k, c] matrix: entry (r, j) is Σ_q x[r, q] · w[q, j]. -/
def mm {n k c : ℕ} (x : (⟨2, ![n, k]⟩ : Shape).Idx → EReal) (w : (⟨2, ![k, c]⟩ : Shape).Idx → EReal) :
    (⟨2, ![n, c]⟩ : Shape).Idx → EReal :=
  fun i => ∑ q : Fin k, x (ix2 (⟨(i 0).val, idx2_lt0 i⟩ : Fin n) q) * w (ix2 q (⟨(i 1).val, idx2_lt1 i⟩ : Fin c))

/-- A layer's value before its activation: agg + h · (d · d) + b, the degree factor a column, the bias a row. -/
def pre {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  fun i => agg i + h i * (d (ix2 (⟨(i 0).val, idx2_lt0 i⟩ : Fin n) (0 : Fin 1)) * d (ix2 (⟨(i 0).val, idx2_lt0 i⟩ : Fin n) (0 : Fin 1)))
    + b (ix2 (0 : Fin 1) (⟨(i 1).val, idx2_lt1 i⟩ : Fin c))

/-- The exponential linear unit as the kernel writes it: v where v > 0, e^v − 1 elsewhere. -/
def elu (v : EReal) : EReal :=
  Scalar.select (Ideal.cmp .ogt v (Ideal.ofBits .f32 0x00000000#32)) v (Ideal.exp v - Ideal.ofBits .f32 0x3F800000#32)

/-- The first layer's output: the exponential linear unit of the layer's value, entry by entry. -/
def fin1 {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  fun i => elu (pre agg h d b i)

/-- A row's maximum from −∞: the fold of max over the row's entries, then once more against −∞ (the kernel and the
    reference both take the maximum with −∞ a second time). -/
def rowMax {n c : ℕ} (v : (⟨2, ![n, c]⟩ : Shape).Idx → EReal) (r : Fin n) : EReal :=
  max (Ideal.ofBits .f32 0xFF800000#32)
    ((Finset.univ : Finset (Fin c)).fold max (Ideal.ofBits .f32 0xFF800000#32) (fun k => v (ix2 r k)))

/-- The logarithm of the softmax along the rows of v. -/
def lsm {n c : ℕ} (v : (⟨2, ![n, c]⟩ : Shape).Idx → EReal) : (⟨2, ![n, c]⟩ : Shape).Idx → EReal :=
  fun i => (v i - rowMax v ⟨(i 0).val, idx2_lt0 i⟩)
    - Ideal.log (∑ k : Fin c, Ideal.exp (v (ix2 (⟨(i 0).val, idx2_lt0 i⟩ : Fin n) k) - rowMax v ⟨(i 0).val, idx2_lt0 i⟩))

/-- The second layer's output: the log-softmax of the layer's value along the channels. -/
def fin2 {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  lsm (pre agg h d b)

/-- At an index given by its coordinates the product reads the row and the column. -/
theorem mm_ix2 {n k c : ℕ} (x : (⟨2, ![n, k]⟩ : Shape).Idx → EReal) (w : (⟨2, ![k, c]⟩ : Shape).Idx → EReal) (r : Fin n) (j : Fin c) :
    mm x w (ix2 r j) = ∑ q : Fin k, x (ix2 r q) * w (ix2 q j) := rfl

/-- At an index given by its coordinates the layer's value reads the degree factor at the row and the bias at the column. -/
theorem pre_ix2 {n c : ℕ} (agg h : (⟨2, ![n, c]⟩ : Shape).Idx → EReal) (d : (⟨2, ![n, 1]⟩ : Shape).Idx → EReal)
    (b : (⟨2, ![1, c]⟩ : Shape).Idx → EReal) (r : Fin n) (j : Fin c) :
    pre agg h d b (ix2 r j) = agg (ix2 r j) + h (ix2 r j) * (d (ix2 r (0 : Fin 1)) * d (ix2 r (0 : Fin 1))) + b (ix2 (0 : Fin 1) j) := rfl

/-- At an index given by its coordinates the log-softmax reads the row's maximum and the row's sum. -/
theorem lsm_ix2 {n c : ℕ} (v : (⟨2, ![n, c]⟩ : Shape).Idx → EReal) (r : Fin n) (j : Fin c) :
    lsm v (ix2 r j) = (v (ix2 r j) - rowMax v r) - Ideal.log (∑ k : Fin c, Ideal.exp (v (ix2 r k) - rowMax v r)) := rfl

end Cert.Spec

end
-- ==== Proof.Region0.lean ====
/-
  The closed form of region 0's output array: a dense matrix product, block row by block row.

  The region runs over 10 grid points. At point t it reads rows t · 10000 … t · 10000 + 9999 of the left factor
  (an [100000, 512] array), the whole right factor (a [512, 64] array), and writes rows t · 10000 … of the
  [100000, 64] product: entry (p, q) of the written block is Σ_k x[t · 10000 + p, k] · w[k, q], the accumulator being the
  zero splat. So every point writes its block of ONE function of the two arrays, the product Spec.mm, and the ten
  blocks tile the rows 0 … 99999: the array after the region is the product.
-/
import proofs.«115716_j48524540510801_2_alg».proof.Proof.Gen.KernelIdeal.Frame
import proofs.«115716_j48524540510801_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem Idealize.ShloMosaic.ValueIdx

/-! ## One block: the body's payload at an entry -/

/-- The product's dimension numbers: axis 1 of the left factor is contracted with axis 0 of the right one; the rows of
    the left and the columns of the right remain. -/
abbrev D := dot_S10000x512_S512x64_S10000x64_1_0_0_1_n_n

/-- Entry (p, q) of the block the body stores is the sum over the contracted coordinate k of the products
    x0[p, k] · x1[k, q]: the shape casts are to the same shapes, the accumulator is the zero splat, and the contraction's
    one-axis index is its coordinate. -/
theorem pay_apply (x0 : Vec Ideal S10000x512 .bf16) (x1 : Vec Ideal S512x64 .bf16) (p : Fin 10000) (q : Fin 64) :
    Gen.k0_pay1 (F := Ideal) x0 x1 (ix2 p q) = ∑ k : Fin 512, x0 (ix2 p k) * x1 (ix2 k q) := by
  unfold Gen.k0_pay1
  simp only [shapeCast_self]
  refine (Ideal.matmul_constant_zero_apply (φ₁ := .bf16) (φ₂ := .bf16) D none x0 x1 (ix2 p q)).trans ?_
  rw [← Equiv.sum_comp (contrEquiv1 D 512 rfl rfl).symm]
  refine Finset.sum_congr rfl fun k _ => ?_
  have ck := contrEquiv1_symm_val D 512 rfl rfl k
  -- the left operand's index at output (p, q) and contraction position k is (p, k),
  have hl : D.lhsIdx (ix2 p q) ((contrEquiv1 D 512 rfl rfl).symm k) = ix2 p k := by
    funext ax; apply Fin.ext
    match ax with
    | ⟨0, _⟩ => simp [DotDims.lhsIdx, D, dot_S10000x512_S512x64_S10000x64_1_0_0_1_n_n]; rfl
    | ⟨1, _⟩ => exact (D.lhsIdx_val_of_single (cl := 1) rfl (ix2 p q) _).trans ck
  -- the right operand's is (k, q).
  have hr : D.rhsIdx (ix2 p q) ((contrEquiv1 D 512 rfl rfl).symm k) = ix2 k q := by
    funext ax; apply Fin.ext
    match ax with
    | ⟨0, _⟩ => exact (D.rhsIdx_val_of_single (cr := 0) rfl (ix2 p q) _).trans ck
    | ⟨1, _⟩ => simp [DotDims.rhsIdx, D, dot_S10000x512_S512x64_S10000x64_1_0_0_1_n_n]; rfl
  rw [hl, hr]

/-! ## From the blocks to the array -/

variable (V : (c : Dev nD) → (b : Ref sig .tc) → Buf (Elt Ideal) ((c : Thread nD τ).loc b))

/-- The whole-block accesses start at the origin. -/
theorem origin : (![0, 0] : Fin 2 → Nat) = fun _ => 0 := funext fun a => by fin_cases a <;> rfl

/-- The index maps over the grid: at point t the row-blocked windows (the left factor and the product) sit at block
    (t, 0), the right factor's one block at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column k of the left factor's block at point t is row t · 10000 + p, column k of the array: a block's
    coordinate is the block index times the block size plus the coordinate inside the block. -/
theorem emb_lhs (t : Fin cfg0.N) (p : Fin 10000) (k : Fin 512) (r : Fin 100000) (hr : r.val = t.val * 10000 + p.val) :
    ((cfg0.win 0).blk t).view.emb (ix2 p k) = (ix2 r k : S100000x512.Idx) := by
  obtain ⟨e0, e1, -⟩ := index_facts t
  funext a; apply Fin.ext
  match a with
  | ⟨0, _⟩ => show win0_0.index t (0 : Fin 2) * 10000 + 1 * p.val = r.val; omega
  | ⟨1, _⟩ => show win0_0.index t (1 : Fin 2) * 512 + 1 * k.val = k.val; omega

/-- The right factor's one block is the whole array. -/
theorem emb_rhs (t : Fin cfg0.N) (k : Fin 512) (q : Fin 64) :
    ((cfg0.win 1).blk t).view.emb (ix2 k q) = (ix2 k q : S512x64.Idx) := by
  obtain ⟨-, -, e2, e3, -⟩ := index_facts t
  funext a; apply Fin.ext
  match a with
  | ⟨0, _⟩ => show win0_1.index t (0 : Fin 2) * 512 + 1 * k.val = k.val; omega
  | ⟨1, _⟩ => show win0_1.index t (1 : Fin 2) * 64 + 1 * q.val = q.val; omega

/-- Row p, column q of the product's block at point t is row t · 10000 + p, column q of the array. -/
theorem emb_out (t : Fin cfg0.N) (p : Fin 10000) (q : Fin 64) (r : Fin 100000) (hr : r.val = t.val * 10000 + p.val) :
    ((cfg0.win 2).blk t).view.emb (ix2 p q) = (ix2 r q : S100000x64.Idx) := by
  obtain ⟨-, -, -, -, e4, e5⟩ := index_facts t
  funext a; apply Fin.ext
  match a with
  | ⟨0, _⟩ => show win0_2.index t (0 : Fin 2) * 10000 + 1 * p.val = r.val; omega
  | ⟨1, _⟩ => show win0_2.index t (1 : Fin 2) * 64 + 1 * q.val = q.val; omega

/-- What point t writes back is block t of the product of the two arrays as the region finds them: at entry (p, q) of
    the block both sides are Σ_k x[t · 10000 + p, k] · w[k, q]. -/
theorem flushed_eq (c : Dev nD) (t : Fin cfg0.N) :
    (Gen.dat0 (F := Ideal) V c).flushed 2 t = ((cfg0.win 2).blk t).view.read (Elt Ideal)
      (Cert.Spec.mm (n := 100000) (k := 512) (c := 64) (V c main_v27) (V c main_v28)) := by
  show (cfg0.win 2).cut (grid0.coords t) ((Gen.dat0 V c).after 2 t) = _
  rw [Gen.after0_2]
  unfold Gen.out0_2
  rw [View.canon_unit_zero origin]
  simp only [View.ld_unit_zero (S := S10000x512) origin, View.ld_unit_zero (S := S512x64) origin]
  funext j
  obtain ⟨p, q, rfl⟩ : ∃ (p : Fin 10000) (q : Fin 64), j = ix2 p q := ⟨j 0, j 1, eq_ix2 j⟩
  have ht : t.val < grid0.N := t.isLt
  rw [Gen.N_0] at ht
  -- the array's row this block row is
  obtain ⟨r, hr⟩ : ∃ r : Fin 100000, r.val = t.val * 10000 + p.val :=
    ⟨⟨t.val * 10000 + p.val, by have := p.isLt; omega⟩, rfl⟩
  show Gen.k0_pay1 (Gen.iblk0 V c 0 t) (Gen.iblk0 V c 1 t) (ix2 p q)
      = Cert.Spec.mm (V c main_v27) (V c main_v28) (((cfg0.win 2).blk t).view.emb (ix2 p q))
  rw [emb_out t p q r hr, Cert.Spec.mm_ix2]
  refine (pay_apply _ _ p q).trans ?_
  refine Finset.sum_congr rfl fun k _ => ?_
  refine congrArg₂ (· * ·) ?_ ?_
  · show V c main_v27 (((cfg0.win 0).blk t).view.emb (ix2 p k)) = _
    rw [emb_lhs t p k r hr]
  · show V c main_v28 (((cfg0.win 1).blk t).view.emb (ix2 k q)) = _
    rw [emb_rhs t k q]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the array is in the block of the point its row divided by 10000 names: the ten blocks tile the
    rows 0 … 99999. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := Gen.N_0
  obtain ⟨t, ht⟩ : ∃ t : Fin cfg0.N, t.val = (i 0).val / 10000 := ⟨⟨(i 0).val / 10000, by show _ < grid0.N; omega⟩, rfl⟩
  obtain ⟨-, -, -, -, e4, e5⟩ := index_facts t
  refine ⟨t, Gen.flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array after the region is the dense product of the two arrays the region finds. -/
theorem final (c : Dev nD) :
    (Gen.dat0 (F := Ideal) V c).arrAt 2 cfg0.N = Cert.Spec.mm (n := 100000) (k := 512) (c := 64) (V c main_v27) (V c main_v28) :=
  (Gen.dat0 V c).arrAt_eq_of_cover 2 (Cert.Spec.mm (n := 100000) (k := 512) (c := 64) (V c main_v27) (V c main_v28))
    (fun t _ => flushed_eq V c t) cover

end Cert.KernelIdeal.Region0

end
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.Region1.lean ====
/-
  The first layer's finalize region as one whole-array function.

  The region runs over ten row blocks of 10000 rows. At each block it reads the aggregated neighbours' block, the dense
  product's block, the degree column's block and the whole bias row, and writes the block of
      elu (agg[r, j] + h[r, j] · (d[r] · d[r]) + b[j]).
  Every row r of the 100000 lies in exactly the block r / 10000, so the array the region leaves is that function of the
  region-entry arrays at every index.
-/
import proofs.«115716_j48524540510801_2_alg».proof.Proof.Gen.KernelIdeal.Frame
import proofs.«115716_j48524540510801_2_alg».proof.Proof.Spec
import proofs.«115716_j48524540510801_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem Idealize.ShloMosaic.ValueIdx

/-- The body's loads and its store start at the origin of their buffers. -/
theorem origin : (![0, 0] : Fin 2 → Nat) = fun _ => 0 := funext fun a => by fin_cases a <;> rfl

/-- The body's stored value at row p and channel q of a block: the exponential linear unit of the layer's value there,
    the degree factor read at the row and the bias at the channel. -/
theorem pay_apply (d : FVec Ideal S10000x1 .f32) (h : FVec Ideal S10000x64 .f32) (agg : FVec Ideal S10000x64 .f32)
    (b : FVec Ideal S1x64 .f32) (p : Fin 10000) (q : Fin 64) :
    k1_pay1 (F := Ideal) d h agg b (ix2 p q)
      = Cert.Spec.elu (agg (ix2 p q) + h (ix2 p q) * (d (ix2 p (0 : Fin 1)) * d (ix2 p (0 : Fin 1))) + b (ix2 (0 : Fin 1) q)) := by
  unfold k1_pay1
  simp only [shapeCast_self]
  have hcol := ColumnIdx.broadcastTo_a1_ab_apply (mulf d d) broadcasts_S10000x1_S10000x64 p q
  have hrow := broadcastTo_1b_ab_apply b broadcasts_S1x64_S10000x64 p q
  show Cert.Spec.elu (agg (ix2 p q) + h (ix2 p q) * (broadcastTo S10000x64 (mulf d d) broadcasts_S10000x1_S10000x64 (ix2 p q))
      + broadcastTo S10000x64 b broadcasts_S1x64_S10000x64 (ix2 p q)) = _
  rw [hcol, hrow]
  rfl

/-- The printed index maps over the ten points: the three row-blocked inputs and the output sit at block (t, 0), the
    bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p, channel q of the aggregate's block at point t is row t · 10000 + p of the aggregate. -/
theorem read_agg (c : Dev nD) (t : Fin cfg1.N) (p : Fin 10000) (q : Fin 64) (r : Fin 100000)
    (hr : r.val = t.val * 10000 + p.val) : iblk1 (F := Ideal) V c 0 t (ix2 p q) = V c main_v42 (ix2 r q) := by
  show V c main_v42 (((cfg1.win 0).blk t).view.emb (ix2 p q)) = _
  refine congrArg (V c main_v42) (funext fun a => Fin.ext ?_)
  obtain ⟨e00, e01, -⟩ := idx_facts t
  match a with
  | ⟨0, _⟩ => show win1_0.index t (0 : Fin 2) * 10000 + 1 * p.val = r.val; omega
  | ⟨1, _⟩ => show win1_0.index t (1 : Fin 2) * 64 + 1 * q.val = q.val; omega

/-- Row p, channel q of the dense product's block at point t is row t · 10000 + p of the dense product. -/
theorem read_h (c : Dev nD) (t : Fin cfg1.N) (p : Fin 10000) (q : Fin 64) (r : Fin 100000)
    (hr : r.val = t.val * 10000 + p.val) : iblk1 (F := Ideal) V c 1 t (ix2 p q) = V c main_v29 (ix2 r q) := by
  show V c main_v29 (((cfg1.win 1).blk t).view.emb (ix2 p q)) = _
  refine congrArg (V c main_v29) (funext fun a => Fin.ext ?_)
  obtain ⟨-, -, e10, e11, -⟩ := idx_facts t
  match a with
  | ⟨0, _⟩ => show win1_1.index t (0 : Fin 2) * 10000 + 1 * p.val = r.val; omega
  | ⟨1, _⟩ => show win1_1.index t (1 : Fin 2) * 64 + 1 * q.val = q.val; omega

/-- Row p of the degree column's block at point t is row t · 10000 + p of the degree column. -/
theorem read_d (c : Dev nD) (t : Fin cfg1.N) (p : Fin 10000) (r : Fin 100000)
    (hr : r.val = t.val * 10000 + p.val) : iblk1 (F := Ideal) V c 2 t (ix2 p (0 : Fin 1)) = V c main_v26 (ix2 r (0 : Fin 1)) := by
  show V c main_v26 (((cfg1.win 2).blk t).view.emb (ix2 p (0 : Fin 1))) = _
  refine congrArg (V c main_v26) (funext fun a => Fin.ext ?_)
  obtain ⟨-, -, -, -, e20, e21, -⟩ := idx_facts t
  match a with
  | ⟨0, _⟩ => show win1_2.index t (0 : Fin 2) * 10000 + 1 * p.val = r.val; omega
  | ⟨1, _⟩ => show win1_2.index t (1 : Fin 2) * 1 + 1 * 0 = 0; omega

/-- The bias row's block is the bias row at every point. -/
theorem read_b (c : Dev nD) (t : Fin cfg1.N) (q : Fin 64) :
    iblk1 (F := Ideal) V c 3 t (ix2 (0 : Fin 1) q) = V c main_v43 (ix2 (0 : Fin 1) q) := by
  show V c main_v43 (((cfg1.win 3).blk t).view.emb (ix2 (0 : Fin 1) q)) = _
  refine congrArg (V c main_v43) (funext fun a => Fin.ext ?_)
  obtain ⟨-, -, -, -, -, -, e30, e31, -⟩ := idx_facts t
  match a with
  | ⟨0, _⟩ => show win1_3.index t (0 : Fin 2) * 1 + 1 * 0 = 0; omega
  | ⟨1, _⟩ => show win1_3.index t (1 : Fin 2) * 64 + 1 * q.val = q.val; omega

/-- What point t writes back is block t of the first layer's output, as a function of the region-entry arrays. -/
theorem flushed_eq (c : Dev nD) (t : Fin cfg1.N) :
    (dat1 (F := Ideal) V c).flushed 4 t = ((cfg1.win 4).blk t).view.read (Elt Ideal)
      (Cert.Spec.fin1 (n := 100000) (c := 64) (V c main_v42) (V c main_v29) (V c main_v26) (V c main_v43)) := by
  show (cfg1.win 4).cut (grid1.coords t) ((dat1 V c).after 4 t) = _
  rw [after1_4]
  unfold out1_4
  rw [View.canon_unit_zero origin]
  simp only [View.ld_unit_zero (S := S10000x64) origin, View.ld_unit_zero (S := S10000x1) origin,
    View.ld_unit_zero (S := S1x64) origin]
  funext j
  have hp : (j 0).val < 10000 := (j 0).isLt
  have hq : (j 1).val < 64 := (j 1).isLt
  have ht : t.val < 10 := lt_of_lt_of_eq t.isLt N_1
  have hr : t.val * 10000 + (j 0).val < 100000 := by omega
  obtain ⟨-, -, -, -, -, -, -, -, e40, e41⟩ := idx_facts t
  have hemb : ((cfg1.win 4).blk t).view.emb j
      = ix2 (⟨t.val * 10000 + (j 0).val, hr⟩ : Fin 100000) (⟨(j 1).val, hq⟩ : Fin 64) := by
    funext a; apply Fin.ext
    match a with
    | ⟨0, _⟩ => show win1_4.index t (0 : Fin 2) * 10000 + 1 * (j 0).val = t.val * 10000 + (j 0).val; omega
    | ⟨1, _⟩ => show win1_4.index t (1 : Fin 2) * 64 + 1 * (j 1).val = (j 1).val; omega
  show k1_pay1 (F := Ideal) (iblk1 V c 2 t) (iblk1 V c 1 t) (iblk1 V c 0 t) (iblk1 V c 3 t)
      (ix2 (⟨(j 0).val, hp⟩ : Fin 10000) (⟨(j 1).val, hq⟩ : Fin 64))
    = Cert.Spec.fin1 (n := 100000) (c := 64) (V c main_v42) (V c main_v29) (V c main_v26) (V c main_v43)
      (((cfg1.win 4).blk t).view.emb j)
  refine (pay_apply (iblk1 V c 2 t) (iblk1 V c 1 t) (iblk1 V c 0 t) (iblk1 V c 3 t) _ _).trans ?_
  rw [hemb]
  show _ = Cert.Spec.elu (Cert.Spec.pre (V c main_v42) (V c main_v29) (V c main_v26) (V c main_v43)
      (ix2 (⟨t.val * 10000 + (j 0).val, hr⟩ : Fin 100000) (⟨(j 1).val, hq⟩ : Fin 64)))
  rw [Cert.Spec.pre_ix2,
    read_agg V c t ⟨(j 0).val, hp⟩ ⟨(j 1).val, hq⟩ ⟨t.val * 10000 + (j 0).val, hr⟩ rfl,
    read_h V c t ⟨(j 0).val, hp⟩ ⟨(j 1).val, hq⟩ ⟨t.val * 10000 + (j 0).val, hr⟩ rfl,
    read_d V c t ⟨(j 0).val, hp⟩ ⟨t.val * 10000 + (j 0).val, hr⟩ rfl,
    read_b V c t ⟨(j 1).val, hq⟩]

/-- An index of the output array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v44).slice (win1_4.rect t)).set ↔ _
  rw [View.set_slice_whole, Rect.mem_set_unit]
  exact Iff.rfl

/-- Every index of the output array is in the block of the point its row falls in, row / 10000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 10000 < cfg1.N := by
    show (i 0).val / 10000 < grid1.N
    rw [N_1]; omega
  refine ⟨⟨(i 0).val / 10000, ht⟩, flush1_4 _, ?_⟩
  rw [mem_blk]
  obtain ⟨-, -, -, -, -, -, -, -, e40, e41⟩ := idx_facts ⟨(i 0).val / 10000, ht⟩
  have e40' : win1_4.index ⟨(i 0).val / 10000, ht⟩ (0 : Fin 2) = (i 0).val / 10000 := e40
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    omega
  | ⟨1, _⟩ =>
    show win1_4.index ⟨(i 0).val / 10000, ht⟩ (1 : Fin 2) * 64 ≤ (i 1).val
      ∧ (i 1).val < win1_4.index ⟨(i 0).val / 10000, ht⟩ (1 : Fin 2) * 64 + 64
    omega

/-- The array the region leaves in the first layer's output: the exponential linear unit of
    agg + h · (d · d) + b of the region-entry arrays, at every index. -/
theorem final (c : Dev nD) :
    (dat1 (F := Ideal) V c).arrAt 4 cfg1.N
      = Cert.Spec.fin1 (n := 100000) (c := 64) (V c main_v42) (V c main_v29) (V c main_v26) (V c main_v43) :=
  (dat1 (F := Ideal) V c).arrAt_eq_of_cover 4
    (Cert.Spec.fin1 (n := 100000) (c := 64) (V c main_v42) (V c main_v29) (V c main_v26) (V c main_v43))
    (fun t _ => flushed_eq V c t) cover

end Cert.KernelIdeal.Region1

end
-- ==== Proof.Region2.lean ====
/-
  The closed form of region 2's output array: a dense matrix product, block row by block row.

  The region runs over 10 grid points. At point t it reads rows t · 10000 … t · 10000 + 9999 of the left factor
  (an [100000, 64] array), the whole right factor (a [64, 40] array), and writes rows t · 10000 … of the
  [100000, 40] product: entry (p, q) of the written block is Σ_k x[t · 10000 + p, k] · w[k, q], the accumulator being the
  zero splat. So every point writes its block of ONE function of the two arrays, the product Spec.mm, and the ten
  blocks tile the rows 0 … 99999: the array after the region is the product.
-/
import proofs.«115716_j48524540510801_2_alg».proof.Proof.Gen.KernelIdeal.Frame
import proofs.«115716_j48524540510801_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem Idealize.ShloMosaic.ValueIdx

/-! ## One block: the body's payload at an entry -/

/-- The product's dimension numbers: axis 1 of the left factor is contracted with axis 0 of the right one; the rows of
    the left and the columns of the right remain. -/
abbrev D := dot_S10000x64_S64x40_S10000x40_1_0_0_1_n_n

/-- Entry (p, q) of the block the body stores is the sum over the contracted coordinate k of the products
    x0[p, k] · x1[k, q]: the shape casts are to the same shapes, the accumulator is the zero splat, and the contraction's
    one-axis index is its coordinate. -/
theorem pay_apply (x0 : Vec Ideal S10000x64 .bf16) (x1 : Vec Ideal S64x40 .bf16) (p : Fin 10000) (q : Fin 40) :
    Gen.k2_pay1 (F := Ideal) x0 x1 (ix2 p q) = ∑ k : Fin 64, x0 (ix2 p k) * x1 (ix2 k q) := by
  unfold Gen.k2_pay1
  simp only [shapeCast_self]
  refine (Ideal.matmul_constant_zero_apply (φ₁ := .bf16) (φ₂ := .bf16) D none x0 x1 (ix2 p q)).trans ?_
  rw [← Equiv.sum_comp (contrEquiv1 D 64 rfl rfl).symm]
  refine Finset.sum_congr rfl fun k _ => ?_
  have ck := contrEquiv1_symm_val D 64 rfl rfl k
  -- the left operand's index at output (p, q) and contraction position k is (p, k),
  have hl : D.lhsIdx (ix2 p q) ((contrEquiv1 D 64 rfl rfl).symm k) = ix2 p k := by
    funext ax; apply Fin.ext
    match ax with
    | ⟨0, _⟩ => simp [DotDims.lhsIdx, D, dot_S10000x64_S64x40_S10000x40_1_0_0_1_n_n]; rfl
    | ⟨1, _⟩ => exact (D.lhsIdx_val_of_single (cl := 1) rfl (ix2 p q) _).trans ck
  -- the right operand's is (k, q).
  have hr : D.rhsIdx (ix2 p q) ((contrEquiv1 D 64 rfl rfl).symm k) = ix2 k q := by
    funext ax; apply Fin.ext
    match ax with
    | ⟨0, _⟩ => exact (D.rhsIdx_val_of_single (cr := 0) rfl (ix2 p q) _).trans ck
    | ⟨1, _⟩ => simp [DotDims.rhsIdx, D, dot_S10000x64_S64x40_S10000x40_1_0_0_1_n_n]; rfl
  rw [hl, hr]

/-! ## From the blocks to the array -/

variable (V : (c : Dev nD) → (b : Ref sig .tc) → Buf (Elt Ideal) ((c : Thread nD τ).loc b))

/-- The whole-block accesses start at the origin. -/
theorem origin : (![0, 0] : Fin 2 → Nat) = fun _ => 0 := funext fun a => by fin_cases a <;> rfl

/-- The index maps over the grid: at point t the row-blocked windows (the left factor and the product) sit at block
    (t, 0), the right factor's one block at (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p, column k of the left factor's block at point t is row t · 10000 + p, column k of the array: a block's
    coordinate is the block index times the block size plus the coordinate inside the block. -/
theorem emb_lhs (t : Fin cfg2.N) (p : Fin 10000) (k : Fin 64) (r : Fin 100000) (hr : r.val = t.val * 10000 + p.val) :
    ((cfg2.win 0).blk t).view.emb (ix2 p k) = (ix2 r k : S100000x64.Idx) := by
  obtain ⟨e0, e1, -⟩ := index_facts t
  funext a; apply Fin.ext
  match a with
  | ⟨0, _⟩ => show win2_0.index t (0 : Fin 2) * 10000 + 1 * p.val = r.val; omega
  | ⟨1, _⟩ => show win2_0.index t (1 : Fin 2) * 64 + 1 * k.val = k.val; omega

/-- The right factor's one block is the whole array. -/
theorem emb_rhs (t : Fin cfg2.N) (k : Fin 64) (q : Fin 40) :
    ((cfg2.win 1).blk t).view.emb (ix2 k q) = (ix2 k q : S64x40.Idx) := by
  obtain ⟨-, -, e2, e3, -⟩ := index_facts t
  funext a; apply Fin.ext
  match a with
  | ⟨0, _⟩ => show win2_1.index t (0 : Fin 2) * 64 + 1 * k.val = k.val; omega
  | ⟨1, _⟩ => show win2_1.index t (1 : Fin 2) * 40 + 1 * q.val = q.val; omega

/-- Row p, column q of the product's block at point t is row t · 10000 + p, column q of the array. -/
theorem emb_out (t : Fin cfg2.N) (p : Fin 10000) (q : Fin 40) (r : Fin 100000) (hr : r.val = t.val * 10000 + p.val) :
    ((cfg2.win 2).blk t).view.emb (ix2 p q) = (ix2 r q : S100000x40.Idx) := by
  obtain ⟨-, -, -, -, e4, e5⟩ := index_facts t
  funext a; apply Fin.ext
  match a with
  | ⟨0, _⟩ => show win2_2.index t (0 : Fin 2) * 10000 + 1 * p.val = r.val; omega
  | ⟨1, _⟩ => show win2_2.index t (1 : Fin 2) * 40 + 1 * q.val = q.val; omega

/-- What point t writes back is block t of the product of the two arrays as the region finds them: at entry (p, q) of
    the block both sides are Σ_k x[t · 10000 + p, k] · w[k, q]. -/
theorem flushed_eq (c : Dev nD) (t : Fin cfg2.N) :
    (Gen.dat2 (F := Ideal) V c).flushed 2 t = ((cfg2.win 2).blk t).view.read (Elt Ideal)
      (Cert.Spec.mm (n := 100000) (k := 64) (c := 40) (V c main_v45) (V c main_v46)) := by
  show (cfg2.win 2).cut (grid2.coords t) ((Gen.dat2 V c).after 2 t) = _
  rw [Gen.after2_2]
  unfold Gen.out2_2
  rw [View.canon_unit_zero origin]
  simp only [View.ld_unit_zero (S := S10000x64) origin, View.ld_unit_zero (S := S64x40) origin]
  funext j
  obtain ⟨p, q, rfl⟩ : ∃ (p : Fin 10000) (q : Fin 40), j = ix2 p q := ⟨j 0, j 1, eq_ix2 j⟩
  have ht : t.val < grid2.N := t.isLt
  rw [Gen.N_2] at ht
  -- the array's row this block row is
  obtain ⟨r, hr⟩ : ∃ r : Fin 100000, r.val = t.val * 10000 + p.val :=
    ⟨⟨t.val * 10000 + p.val, by have := p.isLt; omega⟩, rfl⟩
  show Gen.k2_pay1 (Gen.iblk2 V c 0 t) (Gen.iblk2 V c 1 t) (ix2 p q)
      = Cert.Spec.mm (V c main_v45) (V c main_v46) (((cfg2.win 2).blk t).view.emb (ix2 p q))
  rw [emb_out t p q r hr, Cert.Spec.mm_ix2]
  refine (pay_apply _ _ p q).trans ?_
  refine Finset.sum_congr rfl fun k _ => ?_
  refine congrArg₂ (· * ·) ?_ ?_
  · show V c main_v45 (((cfg2.win 0).blk t).view.emb (ix2 p k)) = _
    rw [emb_lhs t p k r hr]
  · show V c main_v46 (((cfg2.win 1).blk t).view.emb (ix2 k q)) = _
    rw [emb_rhs t k q]

/-- An index of the array is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v47).slice (win2_2.rect t)).set ↔ _
  rw [View.set_slice_whole, Rect.mem_set_unit]
  exact Iff.rfl

/-- Every index of the array is in the block of the point its row divided by 10000 names: the ten blocks tile the
    rows 0 … 99999. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := Gen.N_2
  obtain ⟨t, ht⟩ : ∃ t : Fin cfg2.N, t.val = (i 0).val / 10000 := ⟨⟨(i 0).val / 10000, by show _ < grid2.N; omega⟩, rfl⟩
  obtain ⟨-, -, -, -, e4, e5⟩ := index_facts t
  refine ⟨t, Gen.flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The array after the region is the dense product of the two arrays the region finds. -/
theorem final (c : Dev nD) :
    (Gen.dat2 (F := Ideal) V c).arrAt 2 cfg2.N = Cert.Spec.mm (n := 100000) (k := 64) (c := 40) (V c main_v45) (V c main_v46) :=
  (Gen.dat2 V c).arrAt_eq_of_cover 2 (Cert.Spec.mm (n := 100000) (k := 64) (c := 40) (V c main_v45) (V c main_v46))
    (fun t _ => flushed_eq V c t) cover

end Cert.KernelIdeal.Region2

end
-- ==== Proof.LibReduceIdx.lean ====
/-
  A matrix reduced along one axis, read at an index.

  For an [a, b] matrix x on the extended reals:
    the maximum along the second axis, at r, is the fold of max from the accumulator's value over k of x[r, k];
    the maximum along the first axis, at c, is the fold of max from the accumulator's value over k of x[k, c];
    the sum along the first axis, at c, is the sum over k of x[k, c].
  In each case the reduced index with the coordinate k put back on the reduced axis is (r, k), respectively (k, c),
  and max and + are commutative and associative, so the order of the fold does not matter.
  The statements are over arbitrary extents; the sum along the second axis is in the sibling file on columns.
-/
import Idealize.ShloMosaic.PureOps.Ideal
import Idealize.ShloMosaic.PureOps.Ideal.Laws
import Idealize.ShloMosaic.Lib.ValueIdx

noncomputable section

namespace Idealize.ShloMosaic.ReduceIdx

open Idealize.ShloMosaic Idealize.ShloMosaic.ValueIdx

/-- The maximum of an [a, b] matrix along its second axis reads, at r, the fold of max over row r from the accumulator's value. -/
theorem rowMax_apply {a b : ℕ} (src : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (funext fun c => Fin.ext (by
        match c with
        | ⟨0, _⟩ => rfl
        | ⟨1, _⟩ => rfl))))

/-- The maximum of an [a, b] matrix along its first axis reads, at c, the fold of max over column c from the accumulator's value. -/
theorem colMax_apply {a b : ℕ} (src : FVec Ideal ⟨2, ![a, b]⟩ .f32) (acc : BitVec 32) (h : Shape.Reduces ⟨2, ![a, b]⟩ [0] ⟨1, ![b]⟩)
    (hφ : FKind.Formats .f32) (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun k => src (ix2 k c)) :=
  (Ideal.multiReduction_maximumf_single src acc h hφ hacc (ix1 c)).trans
    (congrArg (fun f : Fin a → EReal => (Finset.univ : Finset (Fin a)).fold max (Ideal.ofBits .f32 acc) f)
      (funext fun k => congrArg src (funext fun ax => Fin.ext (by
        match ax with
        | ⟨0, _⟩ => rfl
        | ⟨1, _⟩ => rfl))))

/-- The sum of an [a, b] matrix along its first axis reads, at c, the sum of column c. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ k : Fin a, src (ix2 k c) :=
  (Ideal.multiReduction_add_single src _ h hφ hacc (ix1 c)).trans
    (Finset.sum_congr rfl fun k _ => congrArg src (funext fun ax => Fin.ext (by
      match ax with
      | ⟨0, _⟩ => rfl
      | ⟨1, _⟩ => rfl)))

end Idealize.ShloMosaic.ReduceIdx

end
-- ==== Proof.Region3.lean ====
/-
  The second layer's finalize region as one whole-array function.

  The region runs over ten row blocks of 10000 rows. At each block it forms the layer's value
      val[r, j] = agg[r, j] + h[r, j] · (d[r] · d[r]) + b[j]
  on the block and writes the logarithm of its softmax along the 40 channels,
      (val[r, j] − M_r) − log Σ_k e^(val[r, k] − M_r),   M_r = max(−∞, max_k val[r, k]).
  The log-softmax at a row reads that row only, and row p of block t is row t · 10000 + p of the arrays, so each block
  written is the block of the log-softmax of the whole-array value; every row lies in the block r / 10000, so the
  array the region leaves is that function of the region-entry arrays at every index.
-/
import proofs.«115716_j48524540510801_2_alg».proof.Proof.Gen.KernelIdeal.Frame
import proofs.«115716_j48524540510801_2_alg».proof.Proof.Spec
import proofs.«115716_j48524540510801_2_alg».proof.Proof.LibColumn
import proofs.«115716_j48524540510801_2_alg».proof.Proof.LibReduceIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Cert.KernelIdeal Cert.KernelIdeal.Gen Idealize.ShloMosaic Idealize.ShloMosaic.TcCoe Idealize.SL.Sem Idealize.ShloMosaic.ValueIdx

/-- The body's loads and its store start at the origin of their buffers. -/
theorem origin : (![0, 0] : Fin 2 → Nat) = fun _ => 0 := funext fun a => by fin_cases a <;> rfl

/-- The log-softmax at a row reads that row only: two matrices, of any heights, that agree along a row of each have
    the same log-softmax along it. -/
theorem lsm_congr_row {n n' c : ℕ} (v : (⟨2, ![n, c]⟩ : Shape).Idx → EReal) (w : (⟨2, ![n', c]⟩ : Shape).Idx → EReal)
    (r : Fin n) (r' : Fin n') (hrow : ∀ k : Fin c, v (ix2 r k) = w (ix2 r' k)) (j : Fin c) :
    Cert.Spec.lsm v (ix2 r j) = Cert.Spec.lsm w (ix2 r' j) := by
  have hM : Cert.Spec.rowMax v r = Cert.Spec.rowMax w r' := by
    unfold Cert.Spec.rowMax
    rw [show (fun k => v (ix2 r k)) = fun k => w (ix2 r' k) from funext hrow]
  rw [Cert.Spec.lsm_ix2, Cert.Spec.lsm_ix2, hM, hrow j]
  exact congrArg (fun s => w (ix2 r' j) - Cert.Spec.rowMax w r' - Ideal.log s)
    (Finset.sum_congr rfl fun k _ => by rw [hrow k])

/-- The layer's value on a block, as the body forms it from the four blocks it loads. -/
def val (d : FVec Ideal S10000x1 .f32) (h : FVec Ideal S10000x40 .f32) (agg : FVec Ideal S10000x40 .f32)
    (b : FVec Ideal S1x40 .f32) : FVec Ideal S10000x40 .f32 :=
  addf (addf agg (mulf h (broadcastTo S10000x40 (mulf d d) broadcasts_S10000x1_S10000x40)))
    (broadcastTo S10000x40 b broadcasts_S1x40_S10000x40)

/-- At row p and channel q the block's value reads the degree factor at the row and the bias at the channel. -/
theorem val_apply (d : FVec Ideal S10000x1 .f32) (h : FVec Ideal S10000x40 .f32) (agg : FVec Ideal S10000x40 .f32)
    (b : FVec Ideal S1x40 .f32) (p : Fin 10000) (q : Fin 40) :
    val d h agg b (ix2 p q)
      = agg (ix2 p q) + h (ix2 p q) * (d (ix2 p (0 : Fin 1)) * d (ix2 p (0 : Fin 1))) + b (ix2 (0 : Fin 1) q) := by
  have hcol := ColumnIdx.broadcastTo_a1_ab_apply (mulf d d) broadcasts_S10000x1_S10000x40 p q
  have hrow := broadcastTo_1b_ab_apply b broadcasts_S1x40_S10000x40 p q
  show agg (ix2 p q) + h (ix2 p q) * (broadcastTo S10000x40 (mulf d d) broadcasts_S10000x1_S10000x40 (ix2 p q))
      + broadcastTo S10000x40 b broadcasts_S1x40_S10000x40 (ix2 p q) = _
  rw [hcol, hrow]
  rfl

/-- The rows' maxima from −∞, kept as a column and spread over the channels, as the body forms them. -/
def mcol (v : FVec Ideal S10000x40 .f32) : FVec Ideal S10000x40 .f32 :=
  broadcastTo S10000x40
    (shapeCast S10000x1
      (maximumf (broadcast S10000 (Scalar.ofBits (F := Ideal) .f32 0xFF800000#32))
        (multiReduction .maximumf [1] S10000 v 0xFF800000#32 reduces_S10000x40_S10000 (.inl rfl) rfl))
      shapeCasts_S10000_S10000x1)
    broadcasts_S10000x1_S10000x40

/-- At row p, any channel, it is the row's maximum from −∞. -/
theorem mcol_apply (v : FVec Ideal S10000x40 .f32) (p : Fin 10000) (q : Fin 40) :
    mcol v (ix2 p q) = Cert.Spec.rowMax (n := 10000) (c := 40) v p := by
  unfold mcol
  refine (ColumnIdx.broadcastTo_a1_ab_apply _ broadcasts_S10000x1_S10000x40 p q).trans ?_
  refine (ColumnIdx.shapeCast_a_a1_apply _ shapeCasts_S10000_S10000x1 p (0 : Fin 1)).trans ?_
  show max (Ideal.ofBits .f32 0xFF800000#32)
      (multiReduction .maximumf [1] S10000 v 0xFF800000#32 reduces_S10000x40_S10000 (.inl rfl) rfl (ix1 p)) = _
  unfold Cert.Spec.rowMax
  exact congrArg (max (Ideal.ofBits .f32 0xFF800000#32))
    (ReduceIdx.rowMax_apply v 0xFF800000#32 reduces_S10000x40_S10000 (.inl rfl) rfl p)

/-- The logarithms of the rows' sums of exponentials, kept as a column and spread over the channels, as the body forms them. -/
def lcol (s : FVec Ideal S10000x40 .f32) : FVec Ideal S10000x40 .f32 :=
  broadcastTo S10000x40
    (log (shapeCast S10000x1
      (multiReduction .add [1] S10000 (exp s) 0x00000000#32 reduces_S10000x40_S10000 (.inl rfl) rfl)
      shapeCasts_S10000_S10000x1))
    broadcasts_S10000x1_S10000x40

/-- At row p, any channel, it is the logarithm of the row's sum of exponentials. -/
theorem lcol_apply (s : FVec Ideal S10000x40 .f32) (p : Fin 10000) (q : Fin 40) :
    lcol s (ix2 p q) = Ideal.log (∑ k : Fin 40, Ideal.exp (s (ix2 p k))) := by
  unfold lcol
  refine (ColumnIdx.broadcastTo_a1_ab_apply _ broadcasts_S10000x1_S10000x40 p q).trans ?_
  show Ideal.log (shapeCast S10000x1
      (multiReduction .add [1] S10000 (exp s) 0x00000000#32 reduces_S10000x40_S10000 (.inl rfl) rfl)
      shapeCasts_S10000_S10000x1 (ix2 p (0 : Fin 1))) = _
  refine congrArg Ideal.log ?_
  refine (ColumnIdx.shapeCast_a_a1_apply _ shapeCasts_S10000_S10000x1 p (0 : Fin 1)).trans ?_
  exact (ColumnIdx.rowSum_apply (exp s) reduces_S10000x40_S10000 (.inl rfl) rfl p).trans
    (Finset.sum_congr rfl fun k _ => rfl)

/-- The body's stored value is the block's value less its rows' maxima, less the logarithms of the rows' sums. -/
theorem pay_eq (d : FVec Ideal S10000x1 .f32) (h : FVec Ideal S10000x40 .f32) (agg : FVec Ideal S10000x40 .f32)
    (b : FVec Ideal S1x40 .f32) :
    k3_pay1 (F := Ideal) d h agg b
      = subf (subf (val d h agg b) (mcol (val d h agg b))) (lcol (subf (val d h agg b) (mcol (val d h agg b)))) := by
  unfold k3_pay1 val mcol lcol
  simp only [shapeCast_self]

/-- The body's stored value at row p and channel q of a block: the log-softmax, along the channels, of the block's value. -/
theorem pay_apply (d : FVec Ideal S10000x1 .f32) (h : FVec Ideal S10000x40 .f32) (agg : FVec Ideal S10000x40 .f32)
    (b : FVec Ideal S1x40 .f32) (p : Fin 10000) (q : Fin 40) :
    k3_pay1 (F := Ideal) d h agg b (ix2 p q) = Cert.Spec.lsm (n := 10000) (c := 40) (val d h agg b) (ix2 p q) := by
  rw [pay_eq, Cert.Spec.lsm_ix2]
  show (val d h agg b (ix2 p q) - mcol (val d h agg b) (ix2 p q))
      - lcol (subf (val d h agg b) (mcol (val d h agg b))) (ix2 p q) = _
  rw [lcol_apply, mcol_apply]
  exact congrArg (fun s => val d h agg b (ix2 p q) - Cert.Spec.rowMax (val d h agg b) p - Ideal.log s)
    (Finset.sum_congr rfl fun k _ => by
      show Ideal.exp (val d h agg b (ix2 p k) - mcol (val d h agg b) (ix2 p k)) = _
      rw [mcol_apply])

/-- The printed index maps over the ten points: the three row-blocked inputs and the output sit at block (t, 0), the
    bias row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- Row p, channel q of the aggregate's block at point t is row t · 10000 + p of the aggregate. -/
theorem read_agg (c : Dev nD) (t : Fin cfg3.N) (p : Fin 10000) (q : Fin 40) (r : Fin 100000)
    (hr : r.val = t.val * 10000 + p.val) : iblk3 (F := Ideal) V c 0 t (ix2 p q) = V c main_v60 (ix2 r q) := by
  show V c main_v60 (((cfg3.win 0).blk t).view.emb (ix2 p q)) = _
  refine congrArg (V c main_v60) (funext fun a => Fin.ext ?_)
  obtain ⟨e00, e01, -⟩ := idx_facts t
  match a with
  | ⟨0, _⟩ => show win3_0.index t (0 : Fin 2) * 10000 + 1 * p.val = r.val; omega
  | ⟨1, _⟩ => show win3_0.index t (1 : Fin 2) * 40 + 1 * q.val = q.val; omega

/-- Row p, channel q of the dense product's block at point t is row t · 10000 + p of the dense product. -/
theorem read_h (c : Dev nD) (t : Fin cfg3.N) (p : Fin 10000) (q : Fin 40) (r : Fin 100000)
    (hr : r.val = t.val * 10000 + p.val) : iblk3 (F := Ideal) V c 1 t (ix2 p q) = V c main_v47 (ix2 r q) := by
  show V c main_v47 (((cfg3.win 1).blk t).view.emb (ix2 p q)) = _
  refine congrArg (V c main_v47) (funext fun a => Fin.ext ?_)
  obtain ⟨-, -, e10, e11, -⟩ := idx_facts t
  match a with
  | ⟨0, _⟩ => show win3_1.index t (0 : Fin 2) * 10000 + 1 * p.val = r.val; omega
  | ⟨1, _⟩ => show win3_1.index t (1 : Fin 2) * 40 + 1 * q.val = q.val; omega

/-- Row p of the degree column's block at point t is row t · 10000 + p of the degree column. -/
theorem read_d (c : Dev nD) (t : Fin cfg3.N) (p : Fin 10000) (r : Fin 100000)
    (hr : r.val = t.val * 10000 + p.val) : iblk3 (F := Ideal) V c 2 t (ix2 p (0 : Fin 1)) = V c main_v26 (ix2 r (0 : Fin 1)) := by
  show V c main_v26 (((cfg3.win 2).blk t).view.emb (ix2 p (0 : Fin 1))) = _
  refine congrArg (V c main_v26) (funext fun a => Fin.ext ?_)
  obtain ⟨-, -, -, -, e20, e21, -⟩ := idx_facts t
  match a with
  | ⟨0, _⟩ => show win3_2.index t (0 : Fin 2) * 10000 + 1 * p.val = r.val; omega
  | ⟨1, _⟩ => show win3_2.index t (1 : Fin 2) * 1 + 1 * 0 = 0; omega

/-- The bias row's block is the bias row at every point. -/
theorem read_b (c : Dev nD) (t : Fin cfg3.N) (q : Fin 40) :
    iblk3 (F := Ideal) V c 3 t (ix2 (0 : Fin 1) q) = V c main_v61 (ix2 (0 : Fin 1) q) := by
  show V c main_v61 (((cfg3.win 3).blk t).view.emb (ix2 (0 : Fin 1) q)) = _
  refine congrArg (V c main_v61) (funext fun a => Fin.ext ?_)
  obtain ⟨-, -, -, -, -, -, e30, e31, -⟩ := idx_facts t
  match a with
  | ⟨0, _⟩ => show win3_3.index t (0 : Fin 2) * 1 + 1 * 0 = 0; omega
  | ⟨1, _⟩ => show win3_3.index t (1 : Fin 2) * 40 + 1 * q.val = q.val; omega

/-- Row p of the block's value at point t is row t · 10000 + p of the whole-array value, channel by channel. -/
theorem val_row (c : Dev nD) (t : Fin cfg3.N) (p : Fin 10000) (r : Fin 100000)
    (hr : r.val = t.val * 10000 + p.val) (k : Fin 40) :
    val (iblk3 (F := Ideal) V c 2 t) (iblk3 (F := Ideal) V c 1 t) (iblk3 (F := Ideal) V c 0 t) (iblk3 (F := Ideal) V c 3 t) (ix2 p k)
      = Cert.Spec.pre (n := 100000) (c := 40) (V c main_v60) (V c main_v47) (V c main_v26) (V c main_v61) (ix2 r k) := by
  refine (val_apply (iblk3 V c 2 t) (iblk3 V c 1 t) (iblk3 V c 0 t) (iblk3 V c 3 t) p k).trans ?_
  rw [Cert.Spec.pre_ix2, read_agg V c t p k r hr, read_h V c t p k r hr, read_d V c t p r hr, read_b V c t k]

/-- What point t writes back is block t of the second layer's output, as a function of the region-entry arrays. -/
theorem flushed_eq (c : Dev nD) (t : Fin cfg3.N) :
    (dat3 (F := Ideal) V c).flushed 4 t = ((cfg3.win 4).blk t).view.read (Elt Ideal)
      (Cert.Spec.fin2 (n := 100000) (c := 40) (V c main_v60) (V c main_v47) (V c main_v26) (V c main_v61)) := by
  show (cfg3.win 4).cut (grid3.coords t) ((dat3 V c).after 4 t) = _
  rw [after3_4]
  unfold out3_4
  rw [View.canon_unit_zero origin]
  simp only [View.ld_unit_zero (S := S10000x40) origin, View.ld_unit_zero (S := S10000x1) origin,
    View.ld_unit_zero (S := S1x40) origin]
  funext j
  have hp : (j 0).val < 10000 := (j 0).isLt
  have hq : (j 1).val < 40 := (j 1).isLt
  have ht : t.val < 10 := lt_of_lt_of_eq t.isLt N_3
  have hr : t.val * 10000 + (j 0).val < 100000 := by omega
  obtain ⟨-, -, -, -, -, -, -, -, e40, e41⟩ := idx_facts t
  have hemb : ((cfg3.win 4).blk t).view.emb j
      = ix2 (⟨t.val * 10000 + (j 0).val, hr⟩ : Fin 100000) (⟨(j 1).val, hq⟩ : Fin 40) := by
    funext a; apply Fin.ext
    match a with
    | ⟨0, _⟩ => show win3_4.index t (0 : Fin 2) * 10000 + 1 * (j 0).val = t.val * 10000 + (j 0).val; omega
    | ⟨1, _⟩ => show win3_4.index t (1 : Fin 2) * 40 + 1 * (j 1).val = (j 1).val; omega
  show k3_pay1 (F := Ideal) (iblk3 V c 2 t) (iblk3 V c 1 t) (iblk3 V c 0 t) (iblk3 V c 3 t)
      (ix2 (⟨(j 0).val, hp⟩ : Fin 10000) (⟨(j 1).val, hq⟩ : Fin 40))
    = Cert.Spec.fin2 (n := 100000) (c := 40) (V c main_v60) (V c main_v47) (V c main_v26) (V c main_v61)
      (((cfg3.win 4).blk t).view.emb j)
  refine (pay_apply (iblk3 V c 2 t) (iblk3 V c 1 t) (iblk3 V c 0 t) (iblk3 V c 3 t) ⟨(j 0).val, hp⟩ ⟨(j 1).val, hq⟩).trans ?_
  rw [hemb]
  show _ = Cert.Spec.lsm (Cert.Spec.pre (n := 100000) (c := 40) (V c main_v60) (V c main_v47) (V c main_v26) (V c main_v61))
      (ix2 (⟨t.val * 10000 + (j 0).val, hr⟩ : Fin 100000) (⟨(j 1).val, hq⟩ : Fin 40))
  exact lsm_congr_row _ _ ⟨(j 0).val, hp⟩ ⟨t.val * 10000 + (j 0).val, hr⟩
    (fun k => val_row V c t ⟨(j 0).val, hp⟩ ⟨t.val * 10000 + (j 0).val, hr⟩ rfl k) ⟨(j 1).val, hq⟩

/-- An index of the output array is in point t's block iff each coordinate is in the block's range on its axis. -/
theorem mem_blk (t : Fin cfg3.N) (i : S100000x40.Idx) :
    i ∈ ((cfg3.win 4).blk t).view.set ↔ ∀ a : Fin 2, win3_4.index t a * S10000x40.size a ≤ (i a).val
      ∧ (i a).val < win3_4.index t a * S10000x40.size a + S10000x40.size a := by
  show i ∈ ((View.whole main_v62).slice (win3_4.rect t)).set ↔ _
  rw [View.set_slice_whole, Rect.mem_set_unit]
  exact Iff.rfl

/-- Every index of the output array is in the block of the point its row falls in, row / 10000. -/
theorem cover (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have ht : (i 0).val / 10000 < cfg3.N := by
    show (i 0).val / 10000 < grid3.N
    rw [N_3]; omega
  refine ⟨⟨(i 0).val / 10000, ht⟩, flush3_4 _, ?_⟩
  rw [mem_blk]
  obtain ⟨-, -, -, -, -, -, -, -, e40, e41⟩ := idx_facts ⟨(i 0).val / 10000, ht⟩
  have e40' : win3_4.index ⟨(i 0).val / 10000, ht⟩ (0 : Fin 2) = (i 0).val / 10000 := e40
  intro a
  match a with
  | ⟨0, _⟩ =>
    show win3_4.index ⟨(i 0).val / 10000, ht⟩ (0 : Fin 2) * 10000 ≤ (i 0).val
      ∧ (i 0).val < win3_4.index ⟨(i 0).val / 10000, ht⟩ (0 : Fin 2) * 10000 + 10000
    omega
  | ⟨1, _⟩ =>
    show win3_4.index ⟨(i 0).val / 10000, ht⟩ (1 : Fin 2) * 40 ≤ (i 1).val
      ∧ (i 1).val < win3_4.index ⟨(i 0).val / 10000, ht⟩ (1 : Fin 2) * 40 + 40
    omega

/-- The array the region leaves in the second layer's output: the log-softmax along the channels of
    agg + h · (d · d) + b of the region-entry arrays, at every index. -/
theorem final (c : Dev nD) :
    (dat3 (F := Ideal) V c).arrAt 4 cfg3.N
      = Cert.Spec.fin2 (n := 100000) (c := 40) (V c main_v60) (V c main_v47) (V c main_v26) (V c main_v61) :=
  (dat3 (F := Ideal) V c).arrAt_eq_of_cover 4
    (Cert.Spec.fin2 (n := 100000) (c := 40) (V c main_v60) (V c main_v47) (V c main_v26) (V c main_v61))
    (fun t _ => flushed_eq V c t) cover

end Cert.KernelIdeal.Region3

end
-- ==== Proof.KerValue.lean ====
/-
  The idealized kernel's result as a function of its arguments.

  Following the buffer contents from the launch through the four regions: the first region leaves the dense product
  H = X · W1, the stretch after it the neighbours' weighted sum of H's rows, the second region the exponential linear
  unit of agg + H · (d · d) + b1, the third the dense product of that with W2, the stretch after it the second
  weighted sum, and the last region the log-softmax of the second layer's value. The sources, destinations, edge weights
  and degree factors are computed once, before the first region, and no later stretch or region writes them.
-/
import proofs.«115716_j48524540510801_2_alg».proof.Proof.KerRun
import proofs.«115716_j48524540510801_2_alg».proof.Proof.Stretch
import proofs.«115716_j48524540510801_2_alg».proof.Proof.Spec
import proofs.«115716_j48524540510801_2_alg».proof.Proof.Region0
import proofs.«115716_j48524540510801_2_alg».proof.Proof.Region1
import proofs.«115716_j48524540510801_2_alg».proof.Proof.Region2
import proofs.«115716_j48524540510801_2_alg».proof.Proof.Region3

noncomputable section

namespace Cert.KernelIdeal.Value

open Cert.KernelIdeal Cert.KernelIdeal.Gen Idealize.ShloMosaic Idealize.ShloMosaic.TcCoe Idealize.SL.Sem
open Cert.KernelIdeal.Stretch
open Idealize.ShloMosaic.StableHlo (after)

/-- The first layer's dense product, its output, the second layer's dense product, and the result. -/
def h1p (x : FVec Ideal S100000x512 .f32) (w1 : FVec Ideal S512x64 .f32) : FVec Ideal S100000x64 .f32 :=
  Cert.Spec.mm (n := 100000) (k := 512) (c := 64) (truncf .bf16 x bitsLt_bf16_f32) (truncf .bf16 w1 bitsLt_bf16_f32)
def h1 (x : FVec Ideal S100000x512 .f32) (adj : IVec S2x1600000 32) (w1 : FVec Ideal S512x64 .f32) (b1 : FVec Ideal S64 .f32) :
    FVec Ideal S100000x64 .f32 :=
  Cert.Spec.fin1 (n := 100000) (c := 64) (Cert.ReferenceIdeal.Chain.agg64 (F := Ideal) (h1p x w1) adj) (h1p x w1) (col (Cert.ReferenceIdeal.Chain.dis (F := Ideal) adj)) (row64 b1)
def h2p (x : FVec Ideal S100000x512 .f32) (adj : IVec S2x1600000 32) (w1 : FVec Ideal S512x64 .f32) (b1 : FVec Ideal S64 .f32)
    (w2 : FVec Ideal S64x40 .f32) : FVec Ideal S100000x40 .f32 :=
  Cert.Spec.mm (n := 100000) (k := 64) (c := 40) (truncf .bf16 (h1 x adj w1 b1) bitsLt_bf16_f32) (truncf .bf16 w2 bitsLt_bf16_f32)
def out (x : FVec Ideal S100000x512 .f32) (adj : IVec S2x1600000 32) (w1 : FVec Ideal S512x64 .f32) (b1 : FVec Ideal S64 .f32)
    (w2 : FVec Ideal S64x40 .f32) (b2 : FVec Ideal S40 .f32) : FVec Ideal S100000x40 .f32 :=
  Cert.Spec.fin2 (n := 100000) (c := 40) (Cert.ReferenceIdeal.Chain.agg40 (F := Ideal) (h2p x adj w1 b1 w2) adj) (h2p x adj w1 b1 w2)
    (col (Cert.ReferenceIdeal.Chain.dis (F := Ideal) adj)) (row40 b2)

variable (m : (ℓ : Loc nD τ sig) → Buf (Elt Ideal) ℓ) (ρ : Dev nD → PrngReg) (c : Dev nD)

/-! ## After the opening stretch -/

theorem w1_v1 : W1 m ρ c (Proc.devRef .tc main_v1) = Cert.ReferenceIdeal.Chain.src (m ((c : Thread nD τ).loc main_arg1)) := ops0_v1 (W0 m ρ c)
theorem w1_v3 : W1 m ρ c (Proc.devRef .tc main_v3) = Cert.ReferenceIdeal.Chain.dst (m ((c : Thread nD τ).loc main_arg1)) := ops0_v3 (W0 m ρ c)
theorem w1_v25 : W1 m ρ c (Proc.devRef .tc main_v25) = Cert.ReferenceIdeal.Chain.norm (F := Ideal) (m ((c : Thread nD τ).loc main_arg1)) := ops0_v25 (W0 m ρ c)
theorem w1_v26 : W1 m ρ c (Proc.devRef .tc main_v26) = col (Cert.ReferenceIdeal.Chain.dis (F := Ideal) (m ((c : Thread nD τ).loc main_arg1))) := ops0_v26 (W0 m ρ c)
theorem w1_v27 : W1 m ρ c (Proc.devRef .tc main_v27) = truncf (F := Ideal) (s := S100000x512) (φ := .f32) .bf16 (m ((c : Thread nD τ).loc main_arg0)) bitsLt_bf16_f32 := ops0_v27 (W0 m ρ c)
theorem w1_v28 : W1 m ρ c (Proc.devRef .tc main_v28) = truncf (F := Ideal) (s := S512x64) (φ := .f32) .bf16 (m ((c : Thread nD τ).loc main_arg2)) bitsLt_bf16_f32 := ops0_v28 (W0 m ρ c)
theorem w1_arg3 : W1 m ρ c (Proc.devRef .tc main_arg3) = (m ((c : Thread nD τ).loc main_arg3)) := ops0_keep_arg3 (W0 m ρ c)
theorem w1_arg4 : W1 m ρ c (Proc.devRef .tc main_arg4) = (m ((c : Thread nD τ).loc main_arg4)) := ops0_keep_arg4 (W0 m ρ c)
theorem w1_arg5 : W1 m ρ c (Proc.devRef .tc main_arg5) = (m ((c : Thread nD τ).loc main_arg5)) := ops0_keep_arg5 (W0 m ρ c)

/-! ## After the first product -/

theorem w2_v29 : W2 m ρ c (Proc.devRef .tc main_v29) = h1p (m ((c : Thread nD τ).loc main_arg0)) (m ((c : Thread nD τ).loc main_arg2)) := by
  refine (W2_arr m ρ c 2).trans ((Region0.final (V1 m ρ) c).trans ?_)
  show Cert.Spec.mm (n := 100000) (k := 512) (c := 64) (W1 m ρ c (Proc.devRef .tc main_v27)) (W1 m ρ c (Proc.devRef .tc main_v28)) = _
  rw [w1_v27, w1_v28]
  rfl
theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_v25 : W2 m ρ c (Proc.devRef .tc main_v25) = W1 m ρ c (Proc.devRef .tc main_v25) := W2_of_ne m ρ c main_v25 (by decide)
theorem w2_v26 : W2 m ρ c (Proc.devRef .tc main_v26) = W1 m ρ c (Proc.devRef .tc main_v26) := W2_of_ne m ρ c main_v26 (by decide)
theorem w2_arg3 : W2 m ρ c (Proc.devRef .tc main_arg3) = W1 m ρ c (Proc.devRef .tc main_arg3) := W2_of_ne m ρ c main_arg3 (by decide)
theorem w2_arg4 : W2 m ρ c (Proc.devRef .tc main_arg4) = W1 m ρ c (Proc.devRef .tc main_arg4) := W2_of_ne m ρ c main_arg4 (by decide)
theorem w2_arg5 : W2 m ρ c (Proc.devRef .tc main_arg5) = W1 m ρ c (Proc.devRef .tc main_arg5) := W2_of_ne m ρ c main_arg5 (by decide)

/-! ## After the stretch before the first finalize region -/

theorem w3_v42 : W3 m ρ c (Proc.devRef .tc main_v42) = Cert.ReferenceIdeal.Chain.agg64 (F := Ideal) (h1p (m ((c : Thread nD τ).loc main_arg0)) (m ((c : Thread nD τ).loc main_arg2))) (m ((c : Thread nD τ).loc main_arg1)) := by
  refine (ops1_v42 (W2 m ρ c)).trans ?_
  rw [w2_v29, w2_v1, w2_v3, w2_v25, w1_v1, w1_v3, w1_v25]
  exact aggOf64_chain _ _
theorem w3_v43 : W3 m ρ c (Proc.devRef .tc main_v43) = row64 (F := Ideal) (m ((c : Thread nD τ).loc main_arg3)) := by
  refine (ops1_v43 (W2 m ρ c)).trans ?_
  rw [w2_arg3, w1_arg3]
theorem w3_v29 : W3 m ρ c (Proc.devRef .tc main_v29) = h1p (m ((c : Thread nD τ).loc main_arg0)) (m ((c : Thread nD τ).loc main_arg2)) := (ops1_keep_v29 (W2 m ρ c)).trans (w2_v29 m ρ c)
theorem w3_v26 : W3 m ρ c (Proc.devRef .tc main_v26) = col (Cert.ReferenceIdeal.Chain.dis (F := Ideal) (m ((c : Thread nD τ).loc main_arg1))) :=
  (ops1_keep_v26 (W2 m ρ c)).trans ((w2_v26 m ρ c).trans (w1_v26 m ρ c))
theorem w3_v1 : W3 m ρ c (Proc.devRef .tc main_v1) = Cert.ReferenceIdeal.Chain.src (m ((c : Thread nD τ).loc main_arg1)) := (ops1_keep_v1 (W2 m ρ c)).trans ((w2_v1 m ρ c).trans (w1_v1 m ρ c))
theorem w3_v3 : W3 m ρ c (Proc.devRef .tc main_v3) = Cert.ReferenceIdeal.Chain.dst (m ((c : Thread nD τ).loc main_arg1)) := (ops1_keep_v3 (W2 m ρ c)).trans ((w2_v3 m ρ c).trans (w1_v3 m ρ c))
theorem w3_v25 : W3 m ρ c (Proc.devRef .tc main_v25) = Cert.ReferenceIdeal.Chain.norm (F := Ideal) (m ((c : Thread nD τ).loc main_arg1)) := (ops1_keep_v25 (W2 m ρ c)).trans ((w2_v25 m ρ c).trans (w1_v25 m ρ c))
theorem w3_arg4 : W3 m ρ c (Proc.devRef .tc main_arg4) = (m ((c : Thread nD τ).loc main_arg4)) := (ops1_keep_arg4 (W2 m ρ c)).trans ((w2_arg4 m ρ c).trans (w1_arg4 m ρ c))
theorem w3_arg5 : W3 m ρ c (Proc.devRef .tc main_arg5) = (m ((c : Thread nD τ).loc main_arg5)) := (ops1_keep_arg5 (W2 m ρ c)).trans ((w2_arg5 m ρ c).trans (w1_arg5 m ρ c))

/-! ## After the first finalize region -/

theorem w4_v44 : W4 m ρ c (Proc.devRef .tc main_v44) = h1 (m ((c : Thread nD τ).loc main_arg0)) (m ((c : Thread nD τ).loc main_arg1)) (m ((c : Thread nD τ).loc main_arg2)) (m ((c : Thread nD τ).loc main_arg3)) := by
  refine (W4_arr m ρ c 4).trans ((Region1.final (V3 m ρ) c).trans ?_)
  show Cert.Spec.fin1 (n := 100000) (c := 64) (W3 m ρ c (Proc.devRef .tc main_v42)) (W3 m ρ c (Proc.devRef .tc main_v29)) (W3 m ρ c (Proc.devRef .tc main_v26)) (W3 m ρ c (Proc.devRef .tc main_v43)) = _
  rw [w3_v42, w3_v29, w3_v26, w3_v43]
  rfl
/-- The degree column is an input of the region: its array is not written. -/
theorem w4_v26 : W4 m ρ c (Proc.devRef .tc main_v26) = col (Cert.ReferenceIdeal.Chain.dis (F := Ideal) (m ((c : Thread nD τ).loc main_arg1))) := by
  refine (W4_arr m ρ c 2).trans (((dat1 (V3 m ρ) c).arrAt_in 2 rfl cfg1.N).trans ((A_eq1 (V3 m ρ) c 2).trans ?_))
  exact w3_v26 m ρ c
theorem w4_v1 : W4 m ρ c (Proc.devRef .tc main_v1) = W3 m ρ c (Proc.devRef .tc main_v1) := W4_of_ne m ρ c main_v1 (by decide)
theorem w4_v3 : W4 m ρ c (Proc.devRef .tc main_v3) = W3 m ρ c (Proc.devRef .tc main_v3) := W4_of_ne m ρ c main_v3 (by decide)
theorem w4_v25 : W4 m ρ c (Proc.devRef .tc main_v25) = W3 m ρ c (Proc.devRef .tc main_v25) := W4_of_ne m ρ c main_v25 (by decide)
theorem w4_arg4 : W4 m ρ c (Proc.devRef .tc main_arg4) = W3 m ρ c (Proc.devRef .tc main_arg4) := W4_of_ne m ρ c main_arg4 (by decide)
theorem w4_arg5 : W4 m ρ c (Proc.devRef .tc main_arg5) = W3 m ρ c (Proc.devRef .tc main_arg5) := W4_of_ne m ρ c main_arg5 (by decide)

/-! ## After the stretch before the second product -/

theorem w5_v45 : W5 m ρ c (Proc.devRef .tc main_v45) = truncf .bf16 (h1 (m ((c : Thread nD τ).loc main_arg0)) (m ((c : Thread nD τ).loc main_arg1)) (m ((c : Thread nD τ).loc main_arg2)) (m ((c : Thread nD τ).loc main_arg3))) bitsLt_bf16_f32 := by
  refine (ops2_v45 (W4 m ρ c)).trans ?_
  rw [w4_v44]
theorem w5_v46 : W5 m ρ c (Proc.devRef .tc main_v46) = truncf (F := Ideal) (s := S64x40) (φ := .f32) .bf16 (m ((c : Thread nD τ).loc main_arg4)) bitsLt_bf16_f32 := by
  refine (ops2_v46 (W4 m ρ c)).trans ?_
  rw [w4_arg4, w3_arg4]
theorem w5_v26 : W5 m ρ c (Proc.devRef .tc main_v26) = col (Cert.ReferenceIdeal.Chain.dis (F := Ideal) (m ((c : Thread nD τ).loc main_arg1))) := (ops2_keep_v26 (W4 m ρ c)).trans (w4_v26 m ρ c)
theorem w5_v1 : W5 m ρ c (Proc.devRef .tc main_v1) = Cert.ReferenceIdeal.Chain.src (m ((c : Thread nD τ).loc main_arg1)) := (ops2_keep_v1 (W4 m ρ c)).trans ((w4_v1 m ρ c).trans (w3_v1 m ρ c))
theorem w5_v3 : W5 m ρ c (Proc.devRef .tc main_v3) = Cert.ReferenceIdeal.Chain.dst (m ((c : Thread nD τ).loc main_arg1)) := (ops2_keep_v3 (W4 m ρ c)).trans ((w4_v3 m ρ c).trans (w3_v3 m ρ c))
theorem w5_v25 : W5 m ρ c (Proc.devRef .tc main_v25) = Cert.ReferenceIdeal.Chain.norm (F := Ideal) (m ((c : Thread nD τ).loc main_arg1)) := (ops2_keep_v25 (W4 m ρ c)).trans ((w4_v25 m ρ c).trans (w3_v25 m ρ c))
theorem w5_arg5 : W5 m ρ c (Proc.devRef .tc main_arg5) = (m ((c : Thread nD τ).loc main_arg5)) := (ops2_keep_arg5 (W4 m ρ c)).trans ((w4_arg5 m ρ c).trans (w3_arg5 m ρ c))

/-! ## After the second product -/

theorem w6_v47 : W6 m ρ c (Proc.devRef .tc main_v47) = h2p (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Region2.final (V5 m ρ) c).trans ?_)
  show Cert.Spec.mm (n := 100000) (k := 64) (c := 40) (W5 m ρ c (Proc.devRef .tc main_v45)) (W5 m ρ c (Proc.devRef .tc main_v46)) = _
  rw [w5_v45, w5_v46]
  rfl
theorem w6_v26 : W6 m ρ c (Proc.devRef .tc main_v26) = W5 m ρ c (Proc.devRef .tc main_v26) := W6_of_ne m ρ c main_v26 (by decide)
theorem w6_v1 : W6 m ρ c (Proc.devRef .tc main_v1) = W5 m ρ c (Proc.devRef .tc main_v1) := W6_of_ne m ρ c main_v1 (by decide)
theorem w6_v3 : W6 m ρ c (Proc.devRef .tc main_v3) = W5 m ρ c (Proc.devRef .tc main_v3) := W6_of_ne m ρ c main_v3 (by decide)
theorem w6_v25 : W6 m ρ c (Proc.devRef .tc main_v25) = W5 m ρ c (Proc.devRef .tc main_v25) := W6_of_ne m ρ c main_v25 (by decide)
theorem w6_arg5 : W6 m ρ c (Proc.devRef .tc main_arg5) = W5 m ρ c (Proc.devRef .tc main_arg5) := W6_of_ne m ρ c main_arg5 (by decide)

/-! ## After the stretch before the second finalize region -/

theorem w7_v60 : W7 m ρ c (Proc.devRef .tc main_v60) = Cert.ReferenceIdeal.Chain.agg40 (F := Ideal) (h2p (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  refine (ops3_v60 (W6 m ρ c)).trans ?_
  rw [w6_v47, w6_v1, w6_v3, w6_v25, w5_v1, w5_v3, w5_v25]
  exact aggOf40_chain _ _
theorem w7_v61 : W7 m ρ c (Proc.devRef .tc main_v61) = row40 (F := Ideal) (m ((c : Thread nD τ).loc main_arg5)) := by
  refine (ops3_v61 (W6 m ρ c)).trans ?_
  rw [w6_arg5, w5_arg5]
theorem w7_v47 : W7 m ρ c (Proc.devRef .tc main_v47) = h2p (m ((c : Thread nD τ).loc main_arg0)) (m ((c : Thread nD τ).loc main_arg1)) (m ((c : Thread nD τ).loc main_arg2)) (m ((c : Thread nD τ).loc main_arg3)) (m ((c : Thread nD τ).loc main_arg4)) := (ops3_keep_v47 (W6 m ρ c)).trans (w6_v47 m ρ c)
theorem w7_v26 : W7 m ρ c (Proc.devRef .tc main_v26) = col (Cert.ReferenceIdeal.Chain.dis (F := Ideal) (m ((c : Thread nD τ).loc main_arg1))) :=
  (ops3_keep_v26 (W6 m ρ c)).trans ((w6_v26 m ρ c).trans (w5_v26 m ρ c))

/-! ## The result -/

/-- The result buffer at the last boundary is the kernel's function of the argument arrays. -/
theorem w8_out : W8 m ρ c (Proc.devRef .tc main_v62) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((Region3.final (V7 m ρ) c).trans ?_)
  show Cert.Spec.fin2 (n := 100000) (c := 40) (W7 m ρ c (Proc.devRef .tc main_v60)) (W7 m ρ c (Proc.devRef .tc main_v47)) (W7 m ρ c (Proc.devRef .tc main_v26)) (W7 m ρ c (Proc.devRef .tc main_v61)) = _
  rw [w7_v60, w7_v47, w7_v26, w7_v61]
  rfl

/-- Every weakly fair execution of the idealized kernel terminates with its result at that function of the arguments and
    the arguments as launched. -/
theorem run : θ_run defs (onTc (τ := τ) (main (F := Ideal))) ⟨m, fun _ => 0, ρ⟩ (fun r => ∀ c : Dev nD,
      r.2.mem ((c.tc : Thread nD τ).loc main_v62) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (w8_out m ρ c), (h c).2⟩) (Cert.KernelIdeal.Run.run_out m ρ)

end Cert.KernelIdeal.Value

end
-- ==== Proof.RefRun.lean ====
import proofs.«115716_j48524540510801_2_alg».proof.Proof.Gen.ReferenceIdeal
import Idealize.ShloMosaic.Lib.StableHlo.Run

/-!
# The reference program as a straight line, and its run

The reference's `@main` is a sequence of StableHLO operations on tensor values, four of them calls of
module-local functions (`@elu`, which itself calls `@_where` and `@_where_0`, and `@log_softmax`). A call
executes the callee's body on the operands, each value of the body in a buffer of its own, so `@main` is
the straight line obtained by writing each callee's operations at its call site, over that call's buffer
record. `ops` is that line: the operations of the first window (`ops0`, ending with the second matrix
product, the fifteen operations of `@elu` just before it) followed by those of the second window (`ops1`,
ending with the fifteen operations of `@log_softmax`).

`main_eq` identifies `main` with `seq ops`; `run_main` then reads the run off the list: every weakly fair
execution terminates with each TensorCore buffer at the fold `after ops` of the operations' results over
the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 132 operations in order: its own 102 and, at their call sites, the fifteen of `@elu` (three of them
    `@_where`'s, one `@_where_0`'s) over the records `main_call0`, `main_call0.call0`, `main_call0.call1`, and the fifteen of
    `@log_softmax` over `main_call1`. A callee's argument that is a value of `@main` is that value's buffer as a typed
    reference (`.of`). -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.binary main_arg0 main_arg2 main_v11 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v11 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v10 main_v10 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v11 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v47 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v47 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v47 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v47 : StableHlo.TRef sig ⟨S100000x64, .f32⟩) main_call0.v7 main_call0.call1.v0 select,
    StableHlo.binary main_v48 main_arg4 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.nullary main_c_8 (constantI S_ 32 0#32),
    StableHlo.unary main_c_8 main_v50 (broadcastInDim S1600000 ![] bcast_S_S1600000 : (⟨S_, .i32⟩ : BufTy).Contents (Elt F) → (⟨S1600000, .i32⟩ : BufTy).Contents (Elt F)),
    StableHlo.binary main_v1 main_v50 main_v51 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v52 (broadcastInDim S1600000 ![] bcast_S_S1600000 : (⟨S_, .i32⟩ : BufTy).Contents (Elt F) → (⟨S1600000, .i32⟩ : BufTy).Contents (Elt F)),
    StableHlo.binary main_v1 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v10 main_v55 main_v56 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_10 (constantI S_ 32 0#32),
    StableHlo.unary main_c_10 main_v57 (broadcastInDim S1600000 ![] bcast_S_S1600000 : (⟨S_, .i32⟩ : BufTy).Contents (Elt F) → (⟨S1600000, .i32⟩ : BufTy).Contents (Elt F)),
    StableHlo.binary main_v3 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v59 (broadcastInDim S1600000 ![] bcast_S_S1600000 : (⟨S_, .i32⟩ : BufTy).Contents (Elt F) → (⟨S1600000, .i32⟩ : BufTy).Contents (Elt F)),
    StableHlo.binary main_v3 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v3 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v10 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v56 main_v63 main_v64 (mulf : (⟨S1600000, .f32⟩ : BufTy).Contents (Elt F) → (⟨S1600000, .f32⟩ : BufTy).Contents (Elt F) → (⟨S1600000, .f32⟩ : BufTy).Contents (Elt F)),
    StableHlo.nullary main_c_12 (constantI S_ 32 0#32),
    StableHlo.unary main_c_12 main_v65 (broadcastInDim S1600000 ![] bcast_S_S1600000 : (⟨S_, .i32⟩ : BufTy).Contents (Elt F) → (⟨S1600000, .i32⟩ : BufTy).Contents (Elt F)),
    StableHlo.binary main_v1 main_v65 main_v66 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v67 (broadcastInDim S1600000 ![] bcast_S_S1600000 : (⟨S_, .i32⟩ : BufTy).Contents (Elt F) → (⟨S1600000, .i32⟩ : BufTy).Contents (Elt F)),
    StableHlo.binary main_v1 main_v67 main_v68 (addi : (⟨S1600000, .i32⟩ : BufTy).Contents (Elt F) → (⟨S1600000, .i32⟩ : BufTy).Contents (Elt F) → (⟨S1600000, .i32⟩ : BufTy).Contents (Elt F)),
    StableHlo.ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v69 main_v70 (broadcastInDim S1600000x1 ![0] bcast_S1600000_S1600000x1_0 : (⟨S1600000, .i32⟩ : BufTy).Contents (Elt F) → (⟨S1600000x1, .i32⟩ : BufTy).Contents (Elt F)),
    StableHlo.binary main_v49 main_v70 main_v71 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v64 main_v72 (broadcastInDim S1600000x1 ![0] bcast_S1600000_S1600000x1_0 : (⟨S1600000, .f32⟩ : BufTy).Contents (Elt F) → (⟨S1600000x1, .f32⟩ : BufTy).Contents (Elt F)),
    StableHlo.unary main_v72 main_v73 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v71 main_v73 main_v74 (mulf : (⟨S1600000x40, .f32⟩ : BufTy).Contents (Elt F) → (⟨S1600000x40, .f32⟩ : BufTy).Contents (Elt F) → (⟨S1600000x40, .f32⟩ : BufTy).Contents (Elt F)),
    StableHlo.nullary main_cst_14 (constant S_ .f32 0x00000000#32),
    StableHlo.unary main_cst_14 main_v75 (broadcastInDim S100000x40 ![] bcast_S_S100000x40 : (⟨S_, .f32⟩ : BufTy).Contents (Elt F) → (⟨S100000x40, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.binary main_v10 main_v10 main_v78 (mulf : (⟨S100000, .f32⟩ : BufTy).Contents (Elt F) → (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x40 ![0, 1] bcast_S100000x1_S100000x40_0_1 : (⟨S100000x1, .f32⟩ : BufTy).Contents (Elt F) → (⟨S100000x40, .f32⟩ : BufTy).Contents (Elt F)),
    StableHlo.binary main_v49 main_v80 main_v81 (mulf : (⟨S100000x40, .f32⟩ : BufTy).Contents (Elt F) → (⟨S100000x40, .f32⟩ : BufTy).Contents (Elt F) → (⟨S100000x40, .f32⟩ : BufTy).Contents (Elt F)),
    StableHlo.binary main_v77 main_v81 main_v82 (addf : (⟨S100000x40, .f32⟩ : BufTy).Contents (Elt F) → (⟨S100000x40, .f32⟩ : BufTy).Contents (Elt F) → (⟨S100000x40, .f32⟩ : BufTy).Contents (Elt F)),
    StableHlo.unary main_arg5 main_v83 (broadcastInDim S1x40 ![1] bcast_S40_S1x40_1 : (⟨S40, .f32⟩ : BufTy).Contents (Elt F) → (⟨S1x40, .f32⟩ : BufTy).Contents (Elt F)),
    StableHlo.unary main_v83 main_v84 (broadcastInDim S100000x40 ![0, 1] bcast_S1x40_S100000x40_0_1 : (⟨S1x40, .f32⟩ : BufTy).Contents (Elt F) → (⟨S100000x40, .f32⟩ : BufTy).Contents (Elt F)),
    StableHlo.binary main_v82 main_v84 main_v85 (addf : (⟨S100000x40, .f32⟩ : BufTy).Contents (Elt F) → (⟨S100000x40, .f32⟩ : BufTy).Contents (Elt F) → (⟨S100000x40, .f32⟩ : BufTy).Contents (Elt F)),
    StableHlo.TRef.nullary main_call1.cst (constant S_ .f32 0xFF800000#32),
    StableHlo.TRef.binary (.of main_v85 : StableHlo.TRef sig ⟨S100000x40, .f32⟩) main_call1.cst main_call1.v0 (fun x v => Host.reduce FloatOps.maximumf x v reducesTo_S100000x40_S100000_d1 h_S_),
    StableHlo.TRef.nullary main_call1.cst_0 (constant S_ .f32 0xFF800000#32),
    StableHlo.TRef.unary main_call1.cst_0 main_call1.v1 (broadcastInDim S100000 ![] bcast_S_S100000),
    StableHlo.TRef.binary main_call1.v1 main_call1.v0 main_call1.v2 maximumf,
    StableHlo.TRef.unary main_call1.v2 main_call1.v3 (broadcastInDim S100000x1 ![0] bcast_S100000_S100000x1_0),
    StableHlo.TRef.unary main_call1.v3 main_call1.v4 (broadcastInDim S100000x40 ![0, 1] bcast_S100000x1_S100000x40_0_1),
    StableHlo.TRef.binary (.of main_v85 : StableHlo.TRef sig ⟨S100000x40, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S100000x40_S100000_d1 h_S_),
    StableHlo.TRef.unary main_call1.v7 main_call1.v8 (broadcastInDim S100000x1 ![0] bcast_S100000_S100000x1_0),
    StableHlo.TRef.unary main_call1.v8 main_call1.v9 Host.log,
    StableHlo.TRef.unary main_call1.v9 main_call1.v10 (broadcastInDim S100000x40 ![0, 1] bcast_S100000x1_S100000x40_0_1),
    StableHlo.TRef.binary main_call1.v5 main_call1.v10 main_call1.v11 subf ]

/-- `@main` is that straight line. Both sides are trees of `hlo` steps over the same operations: unfolding the
    two windows, the callees' bodies at their calls and the buffer records at their fields on the left, and
    `seq` on the right, grafts the continuations (`Prog.bind` on a constructor) into one and the same chain. -/
theorem main_eq (c : Dev nD) : main (F := F) c = seq ops := rfl

/-- The signature scopes no TensorCore buffer: every buffer is a tensor value's, in HBM. -/
theorem scopedRefs_eq : (Finset.univ.filter fun b : Ref sig .tc => b.isScoped) = ∅ := by decide
/-- The signature scopes no semaphore: it has none. -/
theorem scopedSems_eq : (Finset.univ.filter fun sm : SemLoc sig => sm.isScoped .tc) = ∅ := by decide

/-- Every operation touches TensorCore references only (each builder's own fact, in the list's order). -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- At the compiled mesh, for any float values, from any memory with zero counters: every weakly fair execution
    of `@main` on the TensorCores terminates, and every final state has each TensorCore buffer at the fold of
    the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
import proofs.«115716_j48524540510801_2_alg».proof.Proof.RefRun
import proofs.«115716_j48524540510801_2_alg».proof.Proof.HostChain

/-!
# What the reference program computes

`RefRun.run_main` leaves each buffer at the fold `after RefRun.ops` of the operations' results. Here that fold
is read at the result buffer `main_v86` as the composed function `Chain.out` of the six arguments' contents, and
at each argument buffer as the contents it had.

The intermediate values are shared many times over (the inverse square root of the degrees is read by six
gathers and two products, the first layer's value four times by the exponential linear unit, the second layer's
value four times by the log-softmax), so the line is cut into four chunks and each chunk's fold is stated, for ANY
entry contents `W`, at the buffers the later chunks read, over `W` at the buffers the chunk itself reads. The
chunks are then composed (`after_app`), the reads rewritten, and the result is `Chain.out` by unfolding.

In `@log_softmax`'s chunk every value sits in a typed reference's buffer, so each operation's result is moved
to the buffer's type and back (`TRef.toBuf`, `TRef.ofBuf`: a cast along the reference's type equation). A pair of
such moves is removed by `ofBuf_toBuf`; the two unpaired ones (the read of `main_v85`, the write of `main_v86`)
are the identity at these literal references, stated on a variable.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- Contents moved to a typed reference's buffer type and back are the contents. -/
theorem ofBuf_toBuf {T : BufTy} (x : TRef sig T) (v : T.Contents (Elt F)) : x.ofBuf (x.toBuf v) = v := by
  unfold TRef.ofBuf TRef.toBuf
  rw [cast_cast, cast_eq]

/-! ## The line in four chunks -/

/-- The line's first 34 operations: the edge list's two rows, the inverse square root of the degrees, the first dense product, the edge weights. -/
abbrev cP : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.binary main_arg0 main_arg2 main_v11 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)) ]

/-- The next 40: the first layer's aggregate and value, the exponential linear unit, the second dense product. -/
abbrev cQ : List (HloOp τ sig (Elt F)) :=
  [ StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v11 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v10 main_v10 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v11 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v47 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v47 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v47 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v47 : StableHlo.TRef sig ⟨S100000x64, .f32⟩) main_call0.v7 main_call0.call1.v0 select,
    StableHlo.binary main_v48 main_arg4 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- The next 43: the edge weights again, the second layer's aggregate and value. -/
abbrev cR : List (HloOp τ sig (Elt F)) :=
  [ StableHlo.nullary main_c_8 (constantI S_ 32 0#32),
    StableHlo.unary main_c_8 main_v50 (broadcastInDim S1600000 ![] bcast_S_S1600000 : (⟨S_, .i32⟩ : BufTy).Contents (Elt F) → (⟨S1600000, .i32⟩ : BufTy).Contents (Elt F)),
    StableHlo.binary main_v1 main_v50 main_v51 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v52 (broadcastInDim S1600000 ![] bcast_S_S1600000 : (⟨S_, .i32⟩ : BufTy).Contents (Elt F) → (⟨S1600000, .i32⟩ : BufTy).Contents (Elt F)),
    StableHlo.binary main_v1 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v10 main_v55 main_v56 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_10 (constantI S_ 32 0#32),
    StableHlo.unary main_c_10 main_v57 (broadcastInDim S1600000 ![] bcast_S_S1600000 : (⟨S_, .i32⟩ : BufTy).Contents (Elt F) → (⟨S1600000, .i32⟩ : BufTy).Contents (Elt F)),
    StableHlo.binary main_v3 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v59 (broadcastInDim S1600000 ![] bcast_S_S1600000 : (⟨S_, .i32⟩ : BufTy).Contents (Elt F) → (⟨S1600000, .i32⟩ : BufTy).Contents (Elt F)),
    StableHlo.binary main_v3 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v3 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v10 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v56 main_v63 main_v64 (mulf : (⟨S1600000, .f32⟩ : BufTy).Contents (Elt F) → (⟨S1600000, .f32⟩ : BufTy).Contents (Elt F) → (⟨S1600000, .f32⟩ : BufTy).Contents (Elt F)),
    StableHlo.nullary main_c_12 (constantI S_ 32 0#32),
    StableHlo.unary main_c_12 main_v65 (broadcastInDim S1600000 ![] bcast_S_S1600000 : (⟨S_, .i32⟩ : BufTy).Contents (Elt F) → (⟨S1600000, .i32⟩ : BufTy).Contents (Elt F)),
    StableHlo.binary main_v1 main_v65 main_v66 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v67 (broadcastInDim S1600000 ![] bcast_S_S1600000 : (⟨S_, .i32⟩ : BufTy).Contents (Elt F) → (⟨S1600000, .i32⟩ : BufTy).Contents (Elt F)),
    StableHlo.binary main_v1 main_v67 main_v68 (addi : (⟨S1600000, .i32⟩ : BufTy).Contents (Elt F) → (⟨S1600000, .i32⟩ : BufTy).Contents (Elt F) → (⟨S1600000, .i32⟩ : BufTy).Contents (Elt F)),
    StableHlo.ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v69 main_v70 (broadcastInDim S1600000x1 ![0] bcast_S1600000_S1600000x1_0 : (⟨S1600000, .i32⟩ : BufTy).Contents (Elt F) → (⟨S1600000x1, .i32⟩ : BufTy).Contents (Elt F)),
    StableHlo.binary main_v49 main_v70 main_v71 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.unary main_v64 main_v72 (broadcastInDim S1600000x1 ![0] bcast_S1600000_S1600000x1_0 : (⟨S1600000, .f32⟩ : BufTy).Contents (Elt F) → (⟨S1600000x1, .f32⟩ : BufTy).Contents (Elt F)),
    StableHlo.unary main_v72 main_v73 (broadcastInDim S1600000x40 ![0, 1] bcast_S1600000x1_S1600000x40_0_1 : (⟨S1600000x1, .f32⟩ : BufTy).Contents (Elt F) → (⟨S1600000x40, .f32⟩ : BufTy).Contents (Elt F)),
    StableHlo.binary main_v71 main_v73 main_v74 (mulf : (⟨S1600000x40, .f32⟩ : BufTy).Contents (Elt F) → (⟨S1600000x40, .f32⟩ : BufTy).Contents (Elt F) → (⟨S1600000x40, .f32⟩ : BufTy).Contents (Elt F)),
    StableHlo.nullary main_cst_14 (constant S_ .f32 0x00000000#32),
    StableHlo.unary main_cst_14 main_v75 (broadcastInDim S100000x40 ![] bcast_S_S100000x40 : (⟨S_, .f32⟩ : BufTy).Contents (Elt F) → (⟨S100000x40, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.binary main_v10 main_v10 main_v78 (mulf : (⟨S100000, .f32⟩ : BufTy).Contents (Elt F) → (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x40 ![0, 1] bcast_S100000x1_S100000x40_0_1 : (⟨S100000x1, .f32⟩ : BufTy).Contents (Elt F) → (⟨S100000x40, .f32⟩ : BufTy).Contents (Elt F)),
    StableHlo.binary main_v49 main_v80 main_v81 (mulf : (⟨S100000x40, .f32⟩ : BufTy).Contents (Elt F) → (⟨S100000x40, .f32⟩ : BufTy).Contents (Elt F) → (⟨S100000x40, .f32⟩ : BufTy).Contents (Elt F)),
    StableHlo.binary main_v77 main_v81 main_v82 (addf : (⟨S100000x40, .f32⟩ : BufTy).Contents (Elt F) → (⟨S100000x40, .f32⟩ : BufTy).Contents (Elt F) → (⟨S100000x40, .f32⟩ : BufTy).Contents (Elt F)),
    StableHlo.unary main_arg5 main_v83 (broadcastInDim S1x40 ![1] bcast_S40_S1x40_1 : (⟨S40, .f32⟩ : BufTy).Contents (Elt F) → (⟨S1x40, .f32⟩ : BufTy).Contents (Elt F)),
    StableHlo.unary main_v83 main_v84 (broadcastInDim S100000x40 ![0, 1] bcast_S1x40_S100000x40_0_1 : (⟨S1x40, .f32⟩ : BufTy).Contents (Elt F) → (⟨S100000x40, .f32⟩ : BufTy).Contents (Elt F)),
    StableHlo.binary main_v82 main_v84 main_v85 (addf : (⟨S100000x40, .f32⟩ : BufTy).Contents (Elt F) → (⟨S100000x40, .f32⟩ : BufTy).Contents (Elt F) → (⟨S100000x40, .f32⟩ : BufTy).Contents (Elt F)) ]

/-- The last 15: the logarithm of the softmax along the channels. -/
abbrev cG : List (HloOp τ sig (Elt F)) :=
  [ StableHlo.TRef.nullary main_call1.cst (constant S_ .f32 0xFF800000#32),
    StableHlo.TRef.binary (.of main_v85 : StableHlo.TRef sig ⟨S100000x40, .f32⟩) main_call1.cst main_call1.v0 (fun x v => Host.reduce FloatOps.maximumf x v reducesTo_S100000x40_S100000_d1 h_S_),
    StableHlo.TRef.nullary main_call1.cst_0 (constant S_ .f32 0xFF800000#32),
    StableHlo.TRef.unary main_call1.cst_0 main_call1.v1 (broadcastInDim S100000 ![] bcast_S_S100000),
    StableHlo.TRef.binary main_call1.v1 main_call1.v0 main_call1.v2 maximumf,
    StableHlo.TRef.unary main_call1.v2 main_call1.v3 (broadcastInDim S100000x1 ![0] bcast_S100000_S100000x1_0),
    StableHlo.TRef.unary main_call1.v3 main_call1.v4 (broadcastInDim S100000x40 ![0, 1] bcast_S100000x1_S100000x40_0_1),
    StableHlo.TRef.binary (.of main_v85 : StableHlo.TRef sig ⟨S100000x40, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S100000x40_S100000_d1 h_S_),
    StableHlo.TRef.unary main_call1.v7 main_call1.v8 (broadcastInDim S100000x1 ![0] bcast_S100000_S100000x1_0),
    StableHlo.TRef.unary main_call1.v8 main_call1.v9 Host.log,
    StableHlo.TRef.unary main_call1.v9 main_call1.v10 (broadcastInDim S100000x40 ![0, 1] bcast_S100000x1_S100000x40_0_1),
    StableHlo.TRef.binary main_call1.v5 main_call1.v10 main_call1.v11 subf ]

/-- The whole line is the four chunks in order. -/
theorem ops_eq : (RefRun.ops : List (HloOp τ sig (Elt F))) = cP ++ (cQ ++ (cR ++ cG)) := rfl

/-! ## The first chunk, from any contents -/

attribute [local irreducible] Host.reduce Host.reduceAdd Host.gather Host.scatterAdd in
set_option maxRecDepth 16384 in
set_option maxHeartbeats 400000 in
theorem P_v1 (W : Valuation τ sig (Elt F)) :
    after cP W (main_v1 : DevRef τ sig) = Chain.src (W (main_arg1 : DevRef τ sig)) := by
  after_results_simp
  rfl
attribute [local irreducible] Host.reduce Host.reduceAdd Host.gather Host.scatterAdd in
set_option maxRecDepth 16384 in
set_option maxHeartbeats 400000 in
theorem P_v3 (W : Valuation τ sig (Elt F)) :
    after cP W (main_v3 : DevRef τ sig) = Chain.dst (W (main_arg1 : DevRef τ sig)) := by
  after_results_simp
  rfl
attribute [local irreducible] Host.reduce Host.reduceAdd Host.gather Host.scatterAdd in
set_option maxRecDepth 16384 in
set_option maxHeartbeats 400000 in
theorem P_v10 (W : Valuation τ sig (Elt F)) :
    after cP W (main_v10 : DevRef τ sig) = Chain.dis (F := F) (W (main_arg1 : DevRef τ sig)) := by
  after_results_simp
  rfl
attribute [local irreducible] Host.reduce Host.reduceAdd Host.gather Host.scatterAdd in
set_option maxRecDepth 16384 in
set_option maxHeartbeats 400000 in
theorem P_v11 (W : Valuation τ sig (Elt F)) :
    after cP W (main_v11 : DevRef τ sig) = Chain.h1pre (W (main_arg0 : DevRef τ sig)) (W (main_arg2 : DevRef τ sig)) := by
  after_results_simp
  rfl
attribute [local irreducible] Host.reduce Host.reduceAdd Host.gather Host.scatterAdd in
set_option maxRecDepth 16384 in
set_option maxHeartbeats 400000 in
theorem P_v26 (W : Valuation τ sig (Elt F)) :
    after cP W (main_v26 : DevRef τ sig) = Chain.norm (F := F) (W (main_arg1 : DevRef τ sig)) := by
  after_results_simp
  rfl
theorem P_arg3 (W : Valuation τ sig (Elt F)) : after cP W (main_arg3 : DevRef τ sig) = W (main_arg3 : DevRef τ sig) := by
  after_results_simp
theorem P_arg4 (W : Valuation τ sig (Elt F)) : after cP W (main_arg4 : DevRef τ sig) = W (main_arg4 : DevRef τ sig) := by
  after_results_simp
theorem P_arg5 (W : Valuation τ sig (Elt F)) : after cP W (main_arg5 : DevRef τ sig) = W (main_arg5 : DevRef τ sig) := by
  after_results_simp

/-! ## The second chunk, from contents holding the first's results -/

attribute [local irreducible] Host.reduce Host.reduceAdd Host.gather Host.scatterAdd in
set_option maxRecDepth 16384 in
set_option maxHeartbeats 400000 in
theorem Q_v49 (W : Valuation τ sig (Elt F)) (adj : IVec S2x1600000 32)
    (h_v1 : W (main_v1 : DevRef τ sig) = Chain.src adj) (h_v3 : W (main_v3 : DevRef τ sig) = Chain.dst adj)
    (h_v10 : W (main_v10 : DevRef τ sig) = Chain.dis (F := F) adj) (h_v26 : W (main_v26 : DevRef τ sig) = Chain.norm (F := F) adj) :
    after cQ W (main_v49 : DevRef τ sig) = Chain.h2pre (Chain.eluH (Chain.val64 (Chain.agg64 (W (main_v11 : DevRef τ sig)) adj) (W (main_v11 : DevRef τ sig)) (Chain.dis adj) (W (main_arg3 : DevRef τ sig)))) (W (main_arg4 : DevRef τ sig)) := by
  after_results_simp
  rw [h_v1, h_v3, h_v10, h_v26]
  rfl
theorem Q_v1 (W : Valuation τ sig (Elt F)) : after cQ W (main_v1 : DevRef τ sig) = W (main_v1 : DevRef τ sig) := by
  after_results_simp
theorem Q_v3 (W : Valuation τ sig (Elt F)) : after cQ W (main_v3 : DevRef τ sig) = W (main_v3 : DevRef τ sig) := by
  after_results_simp
theorem Q_v10 (W : Valuation τ sig (Elt F)) : after cQ W (main_v10 : DevRef τ sig) = W (main_v10 : DevRef τ sig) := by
  after_results_simp
theorem Q_arg5 (W : Valuation τ sig (Elt F)) : after cQ W (main_arg5 : DevRef τ sig) = W (main_arg5 : DevRef τ sig) := by
  after_results_simp

/-! ## The third chunk: the second layer's value -/

attribute [local irreducible] Host.reduce Host.reduceAdd Host.gather Host.scatterAdd in
set_option maxRecDepth 16384 in
set_option maxHeartbeats 400000 in
theorem R_v85 (W : Valuation τ sig (Elt F)) (adj : IVec S2x1600000 32)
    (h_v1 : W (main_v1 : DevRef τ sig) = Chain.src adj) (h_v3 : W (main_v3 : DevRef τ sig) = Chain.dst adj)
    (h_v10 : W (main_v10 : DevRef τ sig) = Chain.dis (F := F) adj) :
    after cR W (main_v85 : DevRef τ sig) = Chain.val40 (Chain.agg40 (W (main_v49 : DevRef τ sig)) adj) (W (main_v49 : DevRef τ sig)) (Chain.dis adj) (W (main_arg5 : DevRef τ sig)) := by
  after_results_simp
  rw [h_v1, h_v3, h_v10]
  rfl

/-! ## The fourth chunk: the log-softmax of whatever `main_v85` holds -/

attribute [local irreducible] Host.reduce Host.reduceAdd Host.gather Host.scatterAdd in
set_option maxRecDepth 16384 in
set_option maxHeartbeats 400000 in
theorem G_v86 (W : Valuation τ sig (Elt F)) :
    after cG W (main_v86 : DevRef τ sig) = Chain.lsmH (W (main_v85 : DevRef τ sig)) := by
  have e : (.of main_v85 : TRef sig ⟨S100000x40, .f32⟩).ofBuf (W (main_v85 : DevRef τ sig)) = W (main_v85 : DevRef τ sig) := rfl
  have t : ∀ v : (⟨S100000x40, .f32⟩ : BufTy).Contents (Elt F), main_call1.v11.toBuf v = v := fun _ => rfl
  after_results_simp
  simp only [ofBuf_toBuf]
  rw [e, t]
  rfl

/-! ## The result, and the arguments -/

/-- The result buffer after the whole line: `Chain.out` of the six arguments' contents. -/
theorem out_eq (V : Valuation τ sig (Elt F)) :
    after RefRun.ops V (main_v86 : DevRef τ sig)
      = Chain.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  have h1 := P_v1 V
  have h3 := P_v3 V
  have h10 := P_v10 V
  have h11 := P_v11 V
  have h26 := P_v26 V
  have hA3 := P_arg3 V
  have hA4 := P_arg4 V
  have hA5 := P_arg5 V
  rw [ops_eq, after_app, after_app, after_app]
  generalize after cP V = W1 at h1 h3 h10 h11 h26 hA3 hA4 hA5 ⊢
  have k49 := Q_v49 W1 _ h1 h3 h10 h26
  have k1 := (Q_v1 W1).trans h1
  have k3 := (Q_v3 W1).trans h3
  have k10 := (Q_v10 W1).trans h10
  have kA5 := (Q_arg5 W1).trans hA5
  rw [h11, hA3, hA4] at k49
  generalize after cQ W1 = W2 at k49 k1 k3 k10 kA5 ⊢
  have r85 := R_v85 W2 _ k1 k3 k10
  rw [k49, kA5] at r85
  generalize after cR W2 = W3 at r85 ⊢
  rw [G_v86 W3, r85]
  rfl

theorem arg0_eq (V : Valuation τ sig (Elt F)) :
    after RefRun.ops V (main_arg0 : DevRef τ sig) = V (main_arg0 : DevRef τ sig) := by
  after_results_simp

theorem arg1_eq (V : Valuation τ sig (Elt F)) :
    after RefRun.ops V (main_arg1 : DevRef τ sig) = V (main_arg1 : DevRef τ sig) := by
  after_results_simp

theorem arg2_eq (V : Valuation τ sig (Elt F)) :
    after RefRun.ops V (main_arg2 : DevRef τ sig) = V (main_arg2 : DevRef τ sig) := by
  after_results_simp

theorem arg3_eq (V : Valuation τ sig (Elt F)) :
    after RefRun.ops V (main_arg3 : DevRef τ sig) = V (main_arg3 : DevRef τ sig) := by
  after_results_simp

theorem arg4_eq (V : Valuation τ sig (Elt F)) :
    after RefRun.ops V (main_arg4 : DevRef τ sig) = V (main_arg4 : DevRef τ sig) := by
  after_results_simp

theorem arg5_eq (V : Valuation τ sig (Elt F)) :
    after RefRun.ops V (main_arg5 : DevRef τ sig) = V (main_arg5 : DevRef τ sig) := by
  after_results_simp

/-- On every device, for any float values, from any memory with zero counters: every weakly fair execution of
    `@main` terminates with the result buffer at `Chain.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Chain.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v86).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (RefRun.run_main m ρ)

end Cert.ReferenceIdeal.RefValue

end
-- ==== Proof.LibHostRowIdx.lean ====
/-
  Host layouts and row reductions of a matrix, read at an index.

  `x[:, None]` and `x[None, :]` against a matrix lower on the host to a broadcast in two stages: a vector [a] to the
  column [a, 1] and the column to [a, b], or a vector [b] to the row [1, b] and the row to [a, b]. Read at (r, j) each
  stage only moves coordinates:
    the column at (r, u)           is  the vector at r,        the matrix at (r, j)  is  the column at (r, 0);
    the row at (u, j)              is  the vector at j,        the matrix at (r, j)  is  the row at (0, j).
  A host reduction of an [a, b] matrix along its second axis from a scalar constant reads, at r, over the row's entries:
    the maximum   is  the fold of max from the constant's value over k of x[r, k],
    the sum from the zero constant  is  Σ_k x[r, k]   (the zero adds nothing).
  Max and + are commutative and associative, so the order of the fold does not matter. The statements are over
  arbitrary extents; the broadcasts over any element type, the reductions over the extended reals.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostRowIdx

open Idealize.ShloMosaic Idealize.ShloMosaic.ValueIdx

variable {α : Type}

/-- A vector laid out as a column reads, at (r, u), the vector at r. -/
theorem bcastVecCol_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) :=
  broadcastInDim_apply ![0] h x (ix2 r u) (ix1 r) fun ax => by
    match ax with
    | ⟨0, _⟩ =>
      show r.val = if a = 1 then 0 else r.val
      split
      · have := r.isLt; omega
      · rfl

/-- A column broadcast along the rows reads, at (r, j), the column at r. -/
theorem bcastColMat_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) :=
  broadcastInDim_apply ![0, 1] h x (ix2 r j) (ix2 r (0 : Fin 1)) fun ax => by
    match ax with
    | ⟨0, _⟩ =>
      show r.val = if a = 1 then 0 else r.val
      split
      · have := r.isLt; omega
      · rfl
    | ⟨1, _⟩ => rfl

/-- A vector laid out as a row reads, at (u, j), the vector at j. -/
theorem bcastVecRow_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply ![1] h x (ix2 u j) (ix1 j) fun ax => by
    match ax with
    | ⟨0, _⟩ =>
      show j.val = if b = 1 then 0 else j.val
      split
      · have := j.isLt; omega
      · rfl

/-- A row broadcast down the rows reads, at (r, j), the row at j. -/
theorem bcastRowMat_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) :=
  broadcastInDim_apply ![0, 1] h x (ix2 r j) (ix2 (0 : Fin 1) j) fun ax => by
    match ax with
    | ⟨0, _⟩ => rfl
    | ⟨1, _⟩ =>
      show j.val = if b = 1 then 0 else j.val
      split
      · have := j.isLt; omega
      · rfl

/-- A scalar constant broadcast to any shape reads the constant's value everywhere. -/
theorem bcastConst_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w :=
  broadcastInDim_scalar_apply h _ j

/-- The host's maximum along the second axis of an [a, b] matrix from a constant reads, at r, the fold of max over row r
    from the constant's value. -/
theorem hostRowMax_apply {a b : ℕ} (x : FVec Ideal ⟨2, ![a, b]⟩ .f32) (w : BitVec 32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) :=
  (Host.reduce_eq_fold_single FloatOps.maximumf x _ h' h hu (ix1 r)).trans
    (congrArg (fun f : Fin b → EReal => (Finset.univ : Finset (Fin b)).fold max (Ideal.ofBits .f32 w) f)
      (funext fun k => congrArg x (funext fun c => Fin.ext (by
        match c with
        | ⟨0, _⟩ => rfl
        | ⟨1, _⟩ => rfl))))

/-- The host's sum along the second axis from the zero constant reads, at r, the sum of row r. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (r : Fin a) :
    Host.reduceAdd x (constant (F := Ideal) (⟨0, ![]⟩ : Shape) .f32 0x00000000#32) h' hu (ix1 r) = ∑ k : Fin b, x (ix2 r k) := by
  rw [hostReduceAdd_apply, Ideal.hostReduceAdd_single h' h]
  show Ideal.ofBits .f32 0x00000000#32 + _ = _
  rw [Ideal.ofBits_zero_f32, zero_add]
  exact Finset.sum_congr rfl fun k _ => congrArg x (funext fun c => Fin.ext (by
    match c with
    | ⟨0, _⟩ => rfl
    | ⟨1, _⟩ => rfl))

/-- The host's logarithm and exponential at an index are the extended reals'. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

end Idealize.ShloMosaic.HostRowIdx

end
-- ==== Proof.Bridge.lean ====
/-
  The reference's layers read at an index.

  A layer's value on the host is agg + h · (d · d) + b with the degree factor d · d broadcast from a vector to a
  column to the matrix, and the bias from a vector to a row to the matrix; at (r, j) these read d[r] · d[r] and b[j],
  which is what the kernel's column and row layouts read there too. The reference's exponential linear unit,
  v where v > 0 and 1 · expm1(0 where v > 0, v elsewhere) elsewhere, is v where v > 0 and e^v − 1 elsewhere; its
  log-softmax takes the row maximum and the row sum by host reductions, which at row r are the fold of max and the sum
  over the row's entries; and its dense products are the plain sums over the contracted axis. None of this needs a
  finite operand: only 1 · y = y, 0 + y = y, and that max and + are commutative and associative.
-/
import proofs.«115716_j48524540510801_2_alg».proof.Proof.Stretch
import proofs.«115716_j48524540510801_2_alg».proof.Proof.Spec
import proofs.«115716_j48524540510801_2_alg».proof.Proof.LibColumn
import proofs.«115716_j48524540510801_2_alg».proof.Proof.LibHostRowIdx
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Bridge

open Cert.ReferenceIdeal Cert.ReferenceIdeal.Chain Idealize.ShloMosaic Idealize.ShloMosaic.ValueIdx
open Cert.KernelIdeal.Stretch (col row64 row40)
open Idealize.ShloMosaic.HostRowIdx

/-! ## A layer's value at an index -/

/-- The degree column reads the degree vector at its row; the bias rows read the bias vectors at their columns. -/
theorem col_apply (d : FVec Ideal Cert.KernelIdeal.S100000 .f32) (r : Fin 100000) (u : Fin 1) : col d (ix2 r u) = d (ix1 r) :=
  ColumnIdx.shapeCast_a_a1_apply d _ r u
theorem row64_apply (b : FVec Ideal Cert.KernelIdeal.S64 .f32) (u : Fin 1) (j : Fin 64) : row64 b (ix2 u j) = b (ix1 j) :=
  shapeCast_a_1a_apply b _ u j
theorem row40_apply (b : FVec Ideal Cert.KernelIdeal.S40 .f32) (u : Fin 1) (j : Fin 40) : row40 b (ix2 u j) = b (ix1 j) :=
  shapeCast_a_1a_apply b _ u j

/-- The reference's 64-channel layer value at (r, j): agg + h · (d[r] · d[r]) + b[j]. -/
theorem val64_apply (agg h : FVec Ideal S100000x64 .f32) (d : FVec Ideal S100000 .f32) (b : FVec Ideal S64 .f32)
    (r : Fin 100000) (j : Fin 64) :
    val64 agg h d b (ix2 r j) = agg (ix2 r j) + h (ix2 r j) * (d (ix1 r) * d (ix1 r)) + b (ix1 j) := by
  unfold val64
  show agg (ix2 r j) + h (ix2 r j) * _ + _ = _
  rw [bcastColMat_apply, bcastVecCol_apply, bcastRowMat_apply, bcastVecRow_apply]
  rfl

/-- The reference's 40-channel layer value at (r, j). -/
theorem val40_apply (agg h : FVec Ideal S100000x40 .f32) (d : FVec Ideal S100000 .f32) (b : FVec Ideal S40 .f32)
    (r : Fin 100000) (j : Fin 40) :
    val40 agg h d b (ix2 r j) = agg (ix2 r j) + h (ix2 r j) * (d (ix1 r) * d (ix1 r)) + b (ix1 j) := by
  unfold val40
  show agg (ix2 r j) + h (ix2 r j) * _ + _ = _
  rw [bcastColMat_apply, bcastVecCol_apply, bcastRowMat_apply, bcastVecRow_apply]
  rfl

/-- The kernel's layer value over the column and row layouts is the reference's over the vectors. -/
theorem pre64_eq (agg h : FVec Ideal S100000x64 .f32) (d : FVec Ideal S100000 .f32) (b : FVec Ideal S64 .f32) :
    Cert.Spec.pre (n := 100000) (c := 64) agg h (col d) (row64 b) = val64 agg h d b := by
  funext i
  obtain ⟨r, j, rfl⟩ : ∃ (r : Fin 100000) (j : Fin 64), i = ix2 r j := ⟨i 0, i 1, eq_ix2 i⟩
  rw [Cert.Spec.pre_ix2, val64_apply, col_apply, row64_apply]
theorem pre40_eq (agg h : FVec Ideal S100000x40 .f32) (d : FVec Ideal S100000 .f32) (b : FVec Ideal S40 .f32) :
    Cert.Spec.pre (n := 100000) (c := 40) agg h (col d) (row40 b) = val40 agg h d b := by
  funext i
  obtain ⟨r, j, rfl⟩ : ∃ (r : Fin 100000) (j : Fin 40), i = ix2 r j := ⟨i 0, i 1, eq_ix2 i⟩
  rw [Cert.Spec.pre_ix2, val40_apply, col_apply, row40_apply]

/-! ## The exponential linear unit -/

/-- On the extended reals: v where v > 0, and 1 · (e^(0 where v > 0, v elsewhere) − 1) elsewhere, is v where v > 0 and
    e^v − 1 elsewhere. -/
theorem elu_scalar (v : EReal) :
    Scalar.select (Ideal.cmp .ogt v (Ideal.ofBits .f32 0x00000000#32)) v
      (Ideal.ofBits .f32 0x3F800000#32
        * (Ideal.exp (Scalar.select (Ideal.cmp .ogt v (Ideal.ofBits .f32 0x00000000#32)) (Ideal.ofBits .f32 0x00000000#32) v) - 1))
      = Cert.Spec.elu v := by
  unfold Cert.Spec.elu
  rcases BitVec.eq_zero_or_eq_one (Ideal.cmp .ogt v (Ideal.ofBits .f32 0x00000000#32)) with h | h
  · rw [h, select_zero, select_zero, select_zero, Ideal.ofBits_one_f32, one_mul]
  · rw [h, select_one, select_one]

/-- The reference's exponential linear unit at an index. -/
theorem eluH_apply (v : FVec Ideal S100000x64 .f32) (i : S100000x64.Idx) :
    eluH v i = Scalar.select (Ideal.cmp .ogt (v i) (Ideal.ofBits .f32 0x00000000#32)) (v i)
      (Ideal.ofBits .f32 0x3F800000#32
        * (Ideal.exp (Scalar.select (Ideal.cmp .ogt (v i) (Ideal.ofBits .f32 0x00000000#32)) (Ideal.ofBits .f32 0x00000000#32) (v i)) - 1)) := by
  unfold eluH
  simp only [select_apply, cmpf_apply, mulf_apply, Host.expm1, Ideal.hostUnary_expm1_def, Ideal.cmpf_def, id]
  rw [bcastConst_apply, bcastConst_apply]

/-- The first layer's activation: the kernel's unit of the kernel's value is the reference's unit of the reference's. -/
theorem fin1_eq (agg h : FVec Ideal S100000x64 .f32) (d : FVec Ideal S100000 .f32) (b : FVec Ideal S64 .f32) :
    Cert.Spec.fin1 (n := 100000) (c := 64) agg h (col d) (row64 b) = eluH (val64 agg h d b) := by
  funext i
  show Cert.Spec.elu (Cert.Spec.pre (n := 100000) (c := 64) agg h (col d) (row64 b) i) = _
  rw [pre64_eq, eluH_apply, elu_scalar]

/-! ## The logarithm of the softmax -/

theorem reduces40 : S100000x40.Reduces [1] S100000 := by decide

/-- The reference's row maximum at r is the specification's. -/
theorem maxH_apply (v : FVec Ideal S100000x40 .f32) (r : Fin 100000) : maxH v (ix1 r) = Cert.Spec.rowMax (n := 100000) (c := 40) v r := by
  unfold maxH Cert.Spec.rowMax
  rw [maximumf_apply, bcastConst_apply, hostRowMax_apply v _ _ reduces40 _ r]

/-- The reference's shifted entries at (r, j). -/
theorem shiftH_apply (v : FVec Ideal S100000x40 .f32) (r : Fin 100000) (j : Fin 40) :
    shiftH v (ix2 r j) = v (ix2 r j) - Cert.Spec.rowMax (n := 100000) (c := 40) v r := by
  unfold shiftH
  rw [subf_apply, bcastColMat_apply, bcastVecCol_apply, maxH_apply]

/-- The reference's log-softmax is the specification's. -/
theorem lsmH_eq (v : FVec Ideal S100000x40 .f32) : lsmH v = Cert.Spec.lsm (n := 100000) (c := 40) v := by
  funext i
  obtain ⟨r, j, rfl⟩ : ∃ (r : Fin 100000) (j : Fin 40), i = ix2 r j := ⟨i 0, i 1, eq_ix2 i⟩
  rw [Cert.Spec.lsm_ix2]
  unfold lsmH
  rw [subf_apply, shiftH_apply, bcastColMat_apply, hostLog_apply, bcastVecCol_apply, hostRowSum_apply _ _ reduces40 _ r]
  refine congrArg (fun s => _ - Ideal.log s) (Finset.sum_congr rfl fun k _ => ?_)
  rw [hostExp_apply, shiftH_apply]

/-- The second layer's activation: the kernel's log-softmax of the kernel's value is the reference's of the reference's. -/
theorem fin2_eq (agg h : FVec Ideal S100000x40 .f32) (d : FVec Ideal S100000 .f32) (b : FVec Ideal S40 .f32) :
    Cert.Spec.fin2 (n := 100000) (c := 40) agg h (col d) (row40 b) = lsmH (val40 agg h d b) := by
  unfold Cert.Spec.fin2
  rw [pre40_eq, lsmH_eq]

end Cert.Bridge

end
-- ==== Proof.RefDot.lean ====
/-
  The reference's two dense products are the specification's product.

  On the host the reference multiplies the f32 arrays directly; the kernel first rounds its operands to bf16. On the
  extended reals a change of float format is the identity, so both are the same sum: entry (r, j) of X · W is
  Σ_k X[r, k] · W[k, j], the host's dot_general contracting axis 1 of the left factor with axis 0 of the right one
  onto a zero accumulator.
-/
import proofs.«115716_j48524540510801_2_alg».proof.Proof.HostChain
import proofs.«115716_j48524540510801_2_alg».proof.Proof.Spec
import Idealize.ShloMosaic.Lib.ValueIdx
import Idealize.ShloMosaic.PureOps.Ideal.Laws

noncomputable section

open scoped BigOperators

namespace Cert.RefDot

open Cert.ReferenceIdeal Idealize.ShloMosaic Idealize.ShloMosaic.ValueIdx

/-- The first product's dimension numbers: [100000, 512] by [512, 64]. -/
abbrev D1 := dot_S100000x512_S512x64_S100000x64_1_0_0_1_n_n
/-- The second product's dimension numbers: [100000, 64] by [64, 40]. -/
abbrev D2 := dot_S100000x64_S64x40_S100000x40_1_0_0_1_n_n

/-- The first layer's product X · W1 is the specification's product of the operands rounded to bf16 (rounding is the
    identity on the extended reals; hb is the fact that bf16 is the narrower format, whichever proof of it a program
    carries): at entry (r, j) both are Σ_k X[r, k] · W1[k, j]. -/
theorem h1pre_eq (x : FVec Ideal Cert.ReferenceIdeal.S100000x512 .f32) (w : FVec Ideal Cert.ReferenceIdeal.S512x64 .f32)
    (hb : FTy.bits .bf16 < FTy.bits .f32) :
    Cert.ReferenceIdeal.Chain.h1pre (F := Ideal) x w
      = Cert.Spec.mm (n := 100000) (k := 512) (c := 64) (truncf .bf16 x hb) (truncf .bf16 w hb) := by
  funext i
  obtain ⟨r, j, rfl⟩ : ∃ (r : Fin 100000) (j : Fin 64), i = ix2 r j := ⟨i 0, i 1, eq_ix2 i⟩
  rw [Cert.Spec.mm_ix2]
  unfold Cert.ReferenceIdeal.Chain.h1pre
  simp only [Host.dotGeneral]
  refine (Ideal.dotGeneral_apply (φ₁ := .f32) (φ₂ := .f32) D1 none .single x w (ix2 r j)).trans ?_
  rw [← Equiv.sum_comp (contrEquiv1 D1 512 rfl rfl).symm]
  refine Finset.sum_congr rfl fun k _ => ?_
  have ck := contrEquiv1_symm_val D1 512 rfl rfl k
  -- the left operand's index at output (r, j) and contraction position k is (r, k),
  have hl : D1.lhsIdx (ix2 r j) ((contrEquiv1 D1 512 rfl rfl).symm k) = ix2 r k := by
    funext ax; apply Fin.ext
    match ax with
    | ⟨0, _⟩ => simp [DotDims.lhsIdx, D1, dot_S100000x512_S512x64_S100000x64_1_0_0_1_n_n]; rfl
    | ⟨1, _⟩ => exact (D1.lhsIdx_val_of_single (cl := 1) rfl (ix2 r j) _).trans ck
  -- the right operand's is (k, j).
  have hr : D1.rhsIdx (ix2 r j) ((contrEquiv1 D1 512 rfl rfl).symm k) = ix2 k j := by
    funext ax; apply Fin.ext
    match ax with
    | ⟨0, _⟩ => exact (D1.rhsIdx_val_of_single (cr := 0) rfl (ix2 r j) _).trans ck
    | ⟨1, _⟩ => simp [DotDims.rhsIdx, D1, dot_S100000x512_S512x64_S100000x64_1_0_0_1_n_n]; rfl
  rw [hl, hr]
  rfl

/-- The second layer's product H · W2 likewise: at entry (r, j) both are Σ_k H[r, k] · W2[k, j]. -/
theorem h2pre_eq (hh : FVec Ideal Cert.ReferenceIdeal.S100000x64 .f32) (w : FVec Ideal Cert.ReferenceIdeal.S64x40 .f32)
    (hb : FTy.bits .bf16 < FTy.bits .f32) :
    Cert.ReferenceIdeal.Chain.h2pre (F := Ideal) hh w
      = Cert.Spec.mm (n := 100000) (k := 64) (c := 40) (truncf .bf16 hh hb) (truncf .bf16 w hb) := by
  funext i
  obtain ⟨r, j, rfl⟩ : ∃ (r : Fin 100000) (j : Fin 40), i = ix2 r j := ⟨i 0, i 1, eq_ix2 i⟩
  rw [Cert.Spec.mm_ix2]
  unfold Cert.ReferenceIdeal.Chain.h2pre
  simp only [Host.dotGeneral]
  refine (Ideal.dotGeneral_apply (φ₁ := .f32) (φ₂ := .f32) D2 none .single hh w (ix2 r j)).trans ?_
  rw [← Equiv.sum_comp (contrEquiv1 D2 64 rfl rfl).symm]
  refine Finset.sum_congr rfl fun k _ => ?_
  have ck := contrEquiv1_symm_val D2 64 rfl rfl k
  have hl : D2.lhsIdx (ix2 r j) ((contrEquiv1 D2 64 rfl rfl).symm k) = ix2 r k := by
    funext ax; apply Fin.ext
    match ax with
    | ⟨0, _⟩ => simp [DotDims.lhsIdx, D2, dot_S100000x64_S64x40_S100000x40_1_0_0_1_n_n]; rfl
    | ⟨1, _⟩ => exact (D2.lhsIdx_val_of_single (cl := 1) rfl (ix2 r j) _).trans ck
  have hr : D2.rhsIdx (ix2 r j) ((contrEquiv1 D2 64 rfl rfl).symm k) = ix2 k j := by
    funext ax; apply Fin.ext
    match ax with
    | ⟨0, _⟩ => exact (D2.rhsIdx_val_of_single (cr := 0) rfl (ix2 r j) _).trans ck
    | ⟨1, _⟩ => simp [DotDims.rhsIdx, D2, dot_S100000x64_S64x40_S100000x40_1_0_0_1_n_n]; rfl
  rw [hl, hr]
  rfl

end Cert.RefDot

end
-- ==== Proof.Final.lean ====
/-
  The idealized kernel's function of the arguments is the reference's.

  Layer by layer: the first dense product is the reference's (the operands' change of float format is the identity
  on the extended reals and the contraction is the same sum), so the neighbours' sums of its rows agree; the first
  finalize step is the reference's exponential linear unit of the same value; then the same again for the second
  product, and the last step is the reference's log-softmax of the same value.
-/
import proofs.«115716_j48524540510801_2_alg».proof.Proof.KerValue
import proofs.«115716_j48524540510801_2_alg».proof.Proof.Bridge
import proofs.«115716_j48524540510801_2_alg».proof.Proof.RefDot

noncomputable section

namespace Cert.Final

open Idealize.ShloMosaic
open Cert.KernelIdeal (S100000x512 S2x1600000 S512x64 S64 S64x40 S40)

theorem h1p_eq (x : FVec Ideal S100000x512 .f32) (w1 : FVec Ideal S512x64 .f32) :
    Cert.KernelIdeal.Value.h1p x w1 = Cert.ReferenceIdeal.Chain.h1pre (F := Ideal) x w1 :=
  (Cert.RefDot.h1pre_eq x w1 _).symm

theorem h1_eq (x : FVec Ideal S100000x512 .f32) (adj : IVec S2x1600000 32) (w1 : FVec Ideal S512x64 .f32) (b1 : FVec Ideal S64 .f32) :
    Cert.KernelIdeal.Value.h1 x adj w1 b1 = Cert.ReferenceIdeal.Chain.h1 (F := Ideal) x adj w1 b1 := by
  unfold Cert.KernelIdeal.Value.h1 Cert.ReferenceIdeal.Chain.h1
  rw [h1p_eq]
  exact Cert.Bridge.fin1_eq _ _ _ _

theorem h2p_eq (x : FVec Ideal S100000x512 .f32) (adj : IVec S2x1600000 32) (w1 : FVec Ideal S512x64 .f32) (b1 : FVec Ideal S64 .f32)
    (w2 : FVec Ideal S64x40 .f32) :
    Cert.KernelIdeal.Value.h2p x adj w1 b1 w2
      = Cert.ReferenceIdeal.Chain.h2pre (F := Ideal) (Cert.ReferenceIdeal.Chain.h1 (F := Ideal) x adj w1 b1) w2 := by
  unfold Cert.KernelIdeal.Value.h2p
  rw [h1_eq]
  exact (Cert.RefDot.h2pre_eq _ w2 _).symm

/-- The two programs compute one function of the argument arrays. -/
theorem out_eq (x : FVec Ideal S100000x512 .f32) (adj : IVec S2x1600000 32) (w1 : FVec Ideal S512x64 .f32) (b1 : FVec Ideal S64 .f32)
    (w2 : FVec Ideal S64x40 .f32) (b2 : FVec Ideal S40 .f32) :
    Cert.KernelIdeal.Value.out x adj w1 b1 w2 b2 = Cert.ReferenceIdeal.Chain.out (F := Ideal) x adj w1 b1 w2 b2 := by
  unfold Cert.KernelIdeal.Value.out Cert.ReferenceIdeal.Chain.out
  rw [h2p_eq]
  exact Cert.Bridge.fin2_eq _ _ _ _

end Cert.Final

end
-- ==== Proof.lean ====
/-
  The certificate: a two-layer graph convolution (dense product, neighbours' normalised sum, self-loop term, bias;
  exponential linear unit after the first layer, log-softmax after the second) computed by four gridded kernel regions
  among host gathers and scatters, against the same network written with host operations only.

  The three frames: the two kernel programs' are the generated frame certificates; the reference's is its run with the
  result dropped. Nothing was rewritten by the ideal pass, so there is nothing to preserve. On the extended reals the two
  idealized programs end with equal results: the kernel's result is its four regions' closed forms composed through the
  host stretches (each region's output array is one whole-array function of the arrays it finds: the row blocks'
  products, and the finalize steps entry by entry), the reference's is its operations composed, and the two
  compositions are one function of the argument arrays. The equality uses no finiteness of the inputs: the float
  formats' changes are the identity, the products are the same sums, 1 · y = y, 0 + y = y, and the row maximum and
  row sum do not depend on the order of their folds.
-/
import proofs.«115716_j48524540510801_2_alg».proof.Defs
import proofs.«115716_j48524540510801_2_alg».proof.Proof.Gen.Kernel
import proofs.«115716_j48524540510801_2_alg».proof.Proof.Gen.Kernel.Frame
import proofs.«115716_j48524540510801_2_alg».proof.Proof.Gen.KernelIdeal
import proofs.«115716_j48524540510801_2_alg».proof.Proof.Gen.KernelIdeal.Frame
import proofs.«115716_j48524540510801_2_alg».proof.Proof.Gen.ReferenceIdeal
import proofs.«115716_j48524540510801_2_alg».proof.Proof.Gen.Pre_finite_inputs
import proofs.«115716_j48524540510801_2_alg».proof.Proof.KerValue
import proofs.«115716_j48524540510801_2_alg».proof.Proof.RefValue
import proofs.«115716_j48524540510801_2_alg».proof.Proof.Final

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories agreeing on the arguments both idealized programs end at one function of the argument arrays. -/
theorem algebraic : Cert.algebraic_KernelIdeal_ReferenceIdeal := by
  intro m ρ m' ρ' _ hagree
  refine ⟨fun c => Cert.KernelIdeal.Value.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Value.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (Cert.Final.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
